-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : IVec S2x1200000 32) (main_arg3 : IVec S2x1200000 32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 164
  | .vmem => 40
  | .smem => 0
  | _ => 0

abbrev hbmTy0_0 (i : Nat) : BufTy := match i % 128 with
  | 0 => ⟨S100000x64, .f32⟩
  | 1 => ⟨S100000x64, .f32⟩
  | 2 => ⟨S2x1200000, .i32⟩
  | 3 => ⟨S2x1200000, .i32⟩
  | 4 => ⟨S64x64, .f32⟩
  | 5 => ⟨S64, .f32⟩
  | 6 => ⟨S64x64, .f32⟩
  | 7 => ⟨S64, .f32⟩
  | 8 => ⟨S100000, .i32⟩
  | 9 => ⟨S1x1200000, .i32⟩
  | 10 => ⟨S1200000, .i32⟩
  | 11 => ⟨S1300000, .i32⟩
  | 12 => ⟨S1x1200000, .i32⟩
  | 13 => ⟨S1200000, .i32⟩
  | 14 => ⟨S1300000, .i32⟩
  | 15 => ⟨S_, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1300000, .i32⟩
  | 31 => ⟨S1300000, .i1⟩
  | 32 => ⟨S_, .i32⟩
  | 33 => ⟨S1300000, .i32⟩
  | 34 => ⟨S1300000, .i32⟩
  | 35 => ⟨S1300000, .i32⟩
  | 36 => ⟨S1300000x1, .i32⟩
  | 37 => ⟨S1300000, .f32⟩
  | 38 => ⟨S_, .i32⟩
  | 39 => ⟨S1300000, .i32⟩
  | 40 => ⟨S1300000, .i1⟩
  | 41 => ⟨S_, .i32⟩
  | 42 => ⟨S1300000, .i32⟩
  | 43 => ⟨S1300000, .i32⟩
  | 44 => ⟨S1300000, .i32⟩
  | 45 => ⟨S1300000x1, .i32⟩
  | 46 => ⟨S1300000, .f32⟩
  | 47 => ⟨S1300000, .f32⟩
  | 48 => ⟨S100000, .i32⟩
  | 49 => ⟨S1x1200000, .i32⟩
  | 50 => ⟨S1200000, .i32⟩
  | 51 => ⟨S1300000, .i32⟩
  | 52 => ⟨S1x1200000, .i32⟩
  | 53 => ⟨S1200000, .i32⟩
  | 54 => ⟨S1300000, .i32⟩
  | 55 => ⟨S_, .f32⟩
  | 56 => ⟨S1300000, .f32⟩
  | 57 => ⟨S_, .f32⟩
  | 58 => ⟨S100000, .f32⟩
  | 59 => ⟨S1300000x1, .i32⟩
  | 60 => ⟨S100000, .f32⟩
  | 61 => ⟨S_, .f32⟩
  | 62 => ⟨S100000, .f32⟩
  | 63 => ⟨S100000, .i1⟩
  | 64 => ⟨S100000, .f32⟩
  | 65 => ⟨S_, .f32⟩
  | 66 => ⟨S_, .f32⟩
  | 67 => ⟨S100000, .f32⟩
  | 68 => ⟨S100000, .f32⟩
  | 69 => ⟨S_, .i32⟩
  | 70 => ⟨S1300000, .i32⟩
  | 71 => ⟨S1300000, .i1⟩
  | 72 => ⟨S_, .i32⟩
  | 73 => ⟨S1300000, .i32⟩
  | 74 => ⟨S1300000, .i32⟩
  | 75 => ⟨S1300000, .i32⟩
  | 76 => ⟨S1300000x1, .i32⟩
  | 77 => ⟨S1300000, .f32⟩
  | 78 => ⟨S_, .i32⟩
  | 79 => ⟨S1300000, .i32⟩
  | 80 => ⟨S1300000, .i1⟩
  | 81 => ⟨S_, .i32⟩
  | 82 => ⟨S1300000, .i32⟩
  | 83 => ⟨S1300000, .i32⟩
  | 84 => ⟨S1300000, .i32⟩
  | 85 => ⟨S1300000x1, .i32⟩
  | 86 => ⟨S1300000, .f32⟩
  | 87 => ⟨S1300000, .f32⟩
  | 88 => ⟨S100000x64, .f32⟩
  | 89 => ⟨S_, .i32⟩
  | 90 => ⟨S1300000, .i32⟩
  | 91 => ⟨S1300000, .i1⟩
  | 92 => ⟨S_, .i32⟩
  | 93 => ⟨S1300000, .i32⟩
  | 94 => ⟨S1300000, .i32⟩
  | 95 => ⟨S1300000, .i32⟩
  | 96 => ⟨S1300000x1, .i32⟩
  | 97 => ⟨S1300000x64, .f32⟩
  | 98 => ⟨S1300000x1, .f32⟩
  | 99 => ⟨S1300000x64, .f32⟩
  | 100 => ⟨S1300000x64, .f32⟩
  | 101 => ⟨S_, .f32⟩
  | 102 => ⟨S100000x64, .f32⟩
  | 103 => ⟨S1300000x1, .i32⟩
  | 104 => ⟨S100000x64, .f32⟩
  | 105 => ⟨S1x64, .f32⟩
  | 106 => ⟨S100000x64, .f32⟩
  | 107 => ⟨S100000x64, .f32⟩
  | 108 => ⟨S_, .i32⟩
  | 109 => ⟨S1300000, .i32⟩
  | 110 => ⟨S1300000, .i1⟩
  | 111 => ⟨S_, .i32⟩
  | 112 => ⟨S1300000, .i32⟩
  | 113 => ⟨S1300000, .i32⟩
  | 114 => ⟨S1300000, .i32⟩
  | 115 => ⟨S1300000x1, .i32⟩
  | 116 => ⟨S1300000x64, .f32⟩
  | 117 => ⟨S1300000x1, .f32⟩
  | 118 => ⟨S1300000x64, .f32⟩
  | 119 => ⟨S1300000x64, .f32⟩
  | 120 => ⟨S_, .f32⟩
  | 121 => ⟨S100000x64, .f32⟩
  | 122 => ⟨S1300000x1, .i32⟩
  | 123 => ⟨S100000x64, .f32⟩
  | 124 => ⟨S1x64, .f32⟩
  | 125 => ⟨S100000x64, .f32⟩
  | 126 => ⟨S100000x64, .f32⟩
  | 127 => ⟨S_, .i32⟩
  | _ => ⟨S100000x64, .f32⟩

abbrev hbmTy0_1 (i : Nat) : BufTy := match i % 128 with
  | 0 => ⟨S1300000, .i32⟩
  | 1 => ⟨S1300000, .i1⟩
  | 2 => ⟨S_, .i32⟩
  | 3 => ⟨S1300000, .i32⟩
  | 4 => ⟨S1300000, .i32⟩
  | 5 => ⟨S1300000, .i32⟩
  | 6 => ⟨S1300000x1, .i32⟩
  | 7 => ⟨S1300000x64, .f32⟩
  | 8 => ⟨S1300000x1, .f32⟩
  | 9 => ⟨S1300000x64, .f32⟩
  | 10 => ⟨S1300000x64, .f32⟩
  | 11 => ⟨S_, .f32⟩
  | 12 => ⟨S100000x64, .f32⟩
  | 13 => ⟨S1300000x1, .i32⟩
  | 14 => ⟨S100000x64, .f32⟩
  | 15 => ⟨S1x64, .f32⟩
  | 16 => ⟨S100000x64, .f32⟩
  | 17 => ⟨S100000x64, .f32⟩
  | 18 => ⟨S_, .i32⟩
  | 19 => ⟨S1300000, .i32⟩
  | 20 => ⟨S1300000, .i1⟩
  | 21 => ⟨S_, .i32⟩
  | 22 => ⟨S1300000, .i32⟩
  | 23 => ⟨S1300000, .i32⟩
  | 24 => ⟨S1300000, .i32⟩
  | 25 => ⟨S1300000x1, .i32⟩
  | 26 => ⟨S1300000x64, .f32⟩
  | 27 => ⟨S1300000x1, .f32⟩
  | 28 => ⟨S1300000x64, .f32⟩
  | 29 => ⟨S1300000x64, .f32⟩
  | 30 => ⟨S_, .f32⟩
  | 31 => ⟨S100000x64, .f32⟩
  | 32 => ⟨S1300000x1, .i32⟩
  | 33 => ⟨S100000x64, .f32⟩
  | 34 => ⟨S1x64, .f32⟩
  | 35 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_22 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_25 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v73) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v75) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v105) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v107) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v108) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v121) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v122) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v123) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 180
  | .vmem => 0
  | .smem => 0
  | _ => 0

abbrev hbmTy0_0 (i : Nat) : BufTy := match i % 128 with
  | 0 => ⟨S100000x64, .f32⟩
  | 1 => ⟨S100000x64, .f32⟩
  | 2 => ⟨S2x1200000, .i32⟩
  | 3 => ⟨S2x1200000, .i32⟩
  | 4 => ⟨S64x64, .f32⟩
  | 5 => ⟨S64, .f32⟩
  | 6 => ⟨S64x64, .f32⟩
  | 7 => ⟨S64, .f32⟩
  | 8 => ⟨S100000, .i32⟩
  | 9 => ⟨S1x1200000, .i32⟩
  | 10 => ⟨S1200000, .i32⟩
  | 11 => ⟨S1300000, .i32⟩
  | 12 => ⟨S1x1200000, .i32⟩
  | 13 => ⟨S1200000, .i32⟩
  | 14 => ⟨S1300000, .i32⟩
  | 15 => ⟨S_, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1300000, .i32⟩
  | 31 => ⟨S1300000, .i1⟩
  | 32 => ⟨S_, .i32⟩
  | 33 => ⟨S1300000, .i32⟩
  | 34 => ⟨S1300000, .i32⟩
  | 35 => ⟨S1300000, .i32⟩
  | 36 => ⟨S1300000x1, .i32⟩
  | 37 => ⟨S1300000, .f32⟩
  | 38 => ⟨S_, .i32⟩
  | 39 => ⟨S1300000, .i32⟩
  | 40 => ⟨S1300000, .i1⟩
  | 41 => ⟨S_, .i32⟩
  | 42 => ⟨S1300000, .i32⟩
  | 43 => ⟨S1300000, .i32⟩
  | 44 => ⟨S1300000, .i32⟩
  | 45 => ⟨S1300000x1, .i32⟩
  | 46 => ⟨S1300000, .f32⟩
  | 47 => ⟨S1300000, .f32⟩
  | 48 => ⟨S100000, .i32⟩
  | 49 => ⟨S1x1200000, .i32⟩
  | 50 => ⟨S1200000, .i32⟩
  | 51 => ⟨S1300000, .i32⟩
  | 52 => ⟨S1x1200000, .i32⟩
  | 53 => ⟨S1200000, .i32⟩
  | 54 => ⟨S1300000, .i32⟩
  | 55 => ⟨S_, .f32⟩
  | 56 => ⟨S1300000, .f32⟩
  | 57 => ⟨S_, .f32⟩
  | 58 => ⟨S100000, .f32⟩
  | 59 => ⟨S1300000x1, .i32⟩
  | 60 => ⟨S100000, .f32⟩
  | 61 => ⟨S_, .f32⟩
  | 62 => ⟨S100000, .f32⟩
  | 63 => ⟨S100000, .i1⟩
  | 64 => ⟨S100000, .f32⟩
  | 65 => ⟨S_, .f32⟩
  | 66 => ⟨S_, .f32⟩
  | 67 => ⟨S100000, .f32⟩
  | 68 => ⟨S100000, .f32⟩
  | 69 => ⟨S_, .i32⟩
  | 70 => ⟨S1300000, .i32⟩
  | 71 => ⟨S1300000, .i1⟩
  | 72 => ⟨S_, .i32⟩
  | 73 => ⟨S1300000, .i32⟩
  | 74 => ⟨S1300000, .i32⟩
  | 75 => ⟨S1300000, .i32⟩
  | 76 => ⟨S1300000x1, .i32⟩
  | 77 => ⟨S1300000, .f32⟩
  | 78 => ⟨S_, .i32⟩
  | 79 => ⟨S1300000, .i32⟩
  | 80 => ⟨S1300000, .i1⟩
  | 81 => ⟨S_, .i32⟩
  | 82 => ⟨S1300000, .i32⟩
  | 83 => ⟨S1300000, .i32⟩
  | 84 => ⟨S1300000, .i32⟩
  | 85 => ⟨S1300000x1, .i32⟩
  | 86 => ⟨S1300000, .f32⟩
  | 87 => ⟨S1300000, .f32⟩
  | 88 => ⟨S100000x64, .f32⟩
  | 89 => ⟨S_, .i32⟩
  | 90 => ⟨S1300000, .i32⟩
  | 91 => ⟨S1300000, .i1⟩
  | 92 => ⟨S_, .i32⟩
  | 93 => ⟨S1300000, .i32⟩
  | 94 => ⟨S1300000, .i32⟩
  | 95 => ⟨S1300000, .i32⟩
  | 96 => ⟨S1300000x1, .i32⟩
  | 97 => ⟨S1300000x64, .f32⟩
  | 98 => ⟨S1300000x1, .f32⟩
  | 99 => ⟨S1300000x64, .f32⟩
  | 100 => ⟨S1300000x64, .f32⟩
  | 101 => ⟨S_, .f32⟩
  | 102 => ⟨S100000x64, .f32⟩
  | 103 => ⟨S1300000x1, .i32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S_, .i32⟩
  | 113 => ⟨S1300000, .i32⟩
  | 114 => ⟨S1300000, .i1⟩
  | 115 => ⟨S_, .i32⟩
  | 116 => ⟨S1300000, .i32⟩
  | 117 => ⟨S1300000, .i32⟩
  | 118 => ⟨S1300000, .i32⟩
  | 119 => ⟨S1300000x1, .i32⟩
  | 120 => ⟨S1300000x64, .f32⟩
  | 121 => ⟨S1300000x1, .f32⟩
  | 122 => ⟨S1300000x64, .f32⟩
  | 123 => ⟨S1300000x64, .f32⟩
  | 124 => ⟨S_, .f32⟩
  | 125 => ⟨S100000x64, .f32⟩
  | 126 => ⟨S1300000x1, .i32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S_, .i32⟩
  | 8 => ⟨S1300000, .i32⟩
  | 9 => ⟨S1300000, .i1⟩
  | 10 => ⟨S_, .i32⟩
  | 11 => ⟨S1300000, .i32⟩
  | 12 => ⟨S1300000, .i32⟩
  | 13 => ⟨S1300000, .i32⟩
  | 14 => ⟨S1300000x1, .i32⟩
  | 15 => ⟨S1300000x64, .f32⟩
  | 16 => ⟨S1300000x1, .f32⟩
  | 17 => ⟨S1300000x64, .f32⟩
  | 18 => ⟨S1300000x64, .f32⟩
  | 19 => ⟨S_, .f32⟩
  | 20 => ⟨S100000x64, .f32⟩
  | 21 => ⟨S1300000x1, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x64, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000x64, .f32⟩
  | 39 => ⟨S1300000x1, .f32⟩
  | 40 => ⟨S1300000x64, .f32⟩
  | 41 => ⟨S1300000x64, .f32⟩
  | 42 => ⟨S_, .f32⟩
  | 43 => ⟨S100000x64, .f32⟩
  | 44 => ⟨S1300000x1, .i32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_c_20 : Ref sig .tc := ⟨.hbm, 135, rfl⟩
abbrev main_v97 : Ref sig .tc := ⟨.hbm, 136, rfl⟩
abbrev main_v98 : Ref sig .tc := ⟨.hbm, 137, rfl⟩
abbrev main_c_21 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call4_cst : Ref sig .tc := ⟨.hbm, 154, rfl⟩
abbrev main_call4_v0 : Ref sig .tc := ⟨.hbm, 155, rfl⟩
abbrev main_v113 : Ref sig .tc := ⟨.hbm, 156, rfl⟩
abbrev main_v114 : Ref sig .tc := ⟨.hbm, 157, rfl⟩
abbrev main_c_23 : Ref sig .tc := ⟨.hbm, 158, rfl⟩
abbrev main_v115 : Ref sig .tc := ⟨.hbm, 159, rfl⟩
abbrev main_v116 : Ref sig .tc := ⟨.hbm, 160, rfl⟩
abbrev main_c_24 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_25 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_call5_cst : Ref sig .tc := ⟨.hbm, 177, rfl⟩
abbrev main_call5_v0 : Ref sig .tc := ⟨.hbm, 178, rfl⟩
abbrev main_v131 : Ref sig .tc := ⟨.hbm, 179, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Spec.lean ====
/-
  The network both programs compute, written once as a function of the argument arrays.

  A graph on 100000 nodes is given by 1200000 directed edges (row 0 of the edge array: sources, row 1: destinations),
  to which one self-loop per node is appended: 1300000 edges. A node's degree is the number of edges that end at
  it; an edge (s → d) carries the weight deg(s)^(-1/2) · deg(d)^(-1/2), with the convention that a node of degree zero
  contributes the factor 0. One layer sends the node features x (100000 × 64) to

      relu ( A · (x · W) + b ),     (A y)[d] = ∑ over the edges e that end at d of weight(e) · y[source(e)],

  and the network is two such layers (weights W1, b1 then W2, b2) over the same graph. Every function below is
  the host operation of that name applied to whole arrays; nothing here depends on how a row of x · W or of the
  bias-and-relu step is tiled.
-/
import proofs.«135384_j7275674600509_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- The sources of the self-looped edge list: row 0 of the edge array, then 0, 1, …, 99999. -/
def sources (e : (⟨S2x1200000, .i32⟩ : BufTy).Contents (Elt F)) : (⟨S1300000, .i32⟩ : BufTy).Contents (Elt F) :=
  concatenate S1300000 0 [⟨S1200000, (shapeCast _ (extractStridedSlice S1x1200000 ![0, 0] e slices_S2x1200000_S1x1200000_0_0) shapeCasts_S1x1200000_S1200000)⟩, ⟨S100000, (iotaInDim S100000 32 0)⟩] concatenates_S1200000_S100000_S1300000_d0

/-- The destinations of the self-looped edge list: row 1 of the edge array, then 0, 1, …, 99999. -/
def targets (e : (⟨S2x1200000, .i32⟩ : BufTy).Contents (Elt F)) : (⟨S1300000, .i32⟩ : BufTy).Contents (Elt F) :=
  concatenate S1300000 0 [⟨S1200000, (shapeCast _ (extractStridedSlice S1x1200000 ![1, 0] e slices_S2x1200000_S1x1200000_1_0) shapeCasts_S1x1200000_S1200000)⟩, ⟨S100000, (iotaInDim S100000 32 0)⟩] concatenates_S1200000_S100000_S1300000_d0

/-- A node index as a gather reads it: a negative index counts from the end (100000 is added to it), and the list
    becomes a column of one-element index vectors. -/
def lookup (s : (⟨S1300000, .i32⟩ : BufTy).Contents (Elt F)) : (⟨S1300000x1, .i32⟩ : BufTy).Contents (Elt F) :=
  broadcastInDim S1300000x1 ![0] bcast_S1300000_S1300000x1_0 (select (cmpi .slt s (broadcastInDim S1300000 ![] bcast_S_S1300000 (constantI S_ 32 0#32))) (addi s (broadcastInDim S1300000 ![] bcast_S_S1300000 (constantI S_ 32 100000#32))) s)

/-- A node's degree: one unit scattered onto the destination of every edge. -/
def degree (d : (⟨S1300000, .i32⟩ : BufTy).Contents (Elt F)) : (⟨S100000, .f32⟩ : BufTy).Contents (Elt F) :=
  Host.scatterAdd scatter_S100000_S1300000x1_S1300000_n_0_0_1 (broadcastInDim S100000 ![] bcast_S_S100000 (constant S_ .f32 0x00000000#32)) (broadcastInDim S1300000x1 ![0] bcast_S1300000_S1300000x1_0 d) (broadcastInDim S1300000 ![] bcast_S_S1300000 (constant S_ .f32 0x3F800000#32))

/-- deg^(-1/2) where the degree is positive, 0 elsewhere. -/
def invSqrtDegree (d : (⟨S1300000, .i32⟩ : BufTy).Contents (Elt F)) : (⟨S100000, .f32⟩ : BufTy).Contents (Elt F) :=
  select (cmpf .ogt (degree d) (broadcastInDim S100000 ![] bcast_S_S100000 (constant S_ .f32 0x00000000#32))) (Host.rsqrt (degree d)) (broadcastInDim S100000 ![] bcast_S_S100000 (id (constant S_ .f32 0x00000000#32)))

/-- The weight of every edge: deg(source)^(-1/2) · deg(target)^(-1/2). -/
def edgeWeight (e : (⟨S2x1200000, .i32⟩ : BufTy).Contents (Elt F)) : (⟨S1300000, .f32⟩ : BufTy).Contents (Elt F) :=
  mulf (Host.gather gather_S100000_S1300000x1_S1300000_n_0_n_n_0_1_1 (invSqrtDegree (targets e)) (lookup (sources e))) (Host.gather gather_S100000_S1300000x1_S1300000_n_0_n_n_0_1_1 (invSqrtDegree (targets e)) (lookup (targets e)))

/-- The dense step of a layer: x · W, contracting the 64 features. -/
def project (x : (⟨S100000x64, .f32⟩ : BufTy).Contents (Elt F)) (W : (⟨S64x64, .f32⟩ : BufTy).Contents (Elt F)) : (⟨S100000x64, .f32⟩ : BufTy).Contents (Elt F) :=
  Host.dotGeneral dot_S100000x64_S64x64_S100000x64_1_0_0_1_n_n none x W

/-- The sparse step of a layer: every edge carries its source's row, scaled by the edge's weight, to its target, where
    the rows that arrive are summed. The edge data enter as the three arrays the step reads. -/
def gatherScatter (y : (⟨S100000x64, .f32⟩ : BufTy).Contents (Elt F)) (s d : (⟨S1300000, .i32⟩ : BufTy).Contents (Elt F))
    (wt : (⟨S1300000, .f32⟩ : BufTy).Contents (Elt F)) : (⟨S100000x64, .f32⟩ : BufTy).Contents (Elt F) :=
  Host.scatterAdd scatter_S100000x64_S1300000x1_S1300000x64_1_0_0_1 (broadcastInDim S100000x64 ![] bcast_S_S100000x64 (constant S_ .f32 0x00000000#32)) (broadcastInDim S1300000x1 ![0] bcast_S1300000_S1300000x1_0 d) (mulf (Host.gather gather_S100000x64_S1300000x1_S1300000x64_1_0_n_n_0_1_164 y (lookup s)) (broadcastInDim S1300000x64 ![0, 1] bcast_S1300000x1_S1300000x64_0_1 (broadcastInDim S1300000x1 ![0] bcast_S1300000_S1300000x1_0 wt)))

/-- The last step of a layer with the bias already laid out as one row: add the row to every node's features, then
    take the positive part. -/
def addRowRelu (a : (⟨S100000x64, .f32⟩ : BufTy).Contents (Elt F)) (r : (⟨S1x64, .f32⟩ : BufTy).Contents (Elt F)) : (⟨S100000x64, .f32⟩ : BufTy).Contents (Elt F) :=
  maximumf (addf a (broadcastInDim S100000x64 ![0, 1] bcast_S1x64_S100000x64_0_1 r)) (broadcastInDim S100000x64 ![] bcast_S_S100000x64 (constant S_ .f32 0x00000000#32))

/-- The bias as one row. -/
def asRow (b : (⟨S64, .f32⟩ : BufTy).Contents (Elt F)) : (⟨S1x64, .f32⟩ : BufTy).Contents (Elt F) :=
  broadcastInDim S1x64 ![1] bcast_S64_S1x64_1 b

/-- One layer over the graph `e`: relu (A · (x · W) + b). -/
def layer (x : (⟨S100000x64, .f32⟩ : BufTy).Contents (Elt F)) (e : (⟨S2x1200000, .i32⟩ : BufTy).Contents (Elt F))
    (W : (⟨S64x64, .f32⟩ : BufTy).Contents (Elt F)) (b : (⟨S64, .f32⟩ : BufTy).Contents (Elt F)) : (⟨S100000x64, .f32⟩ : BufTy).Contents (Elt F) :=
  addRowRelu (gatherScatter (project x W) (sources e) (targets e) (edgeWeight e)) (asRow b)

/-- The two layers. -/
def network (x : (⟨S100000x64, .f32⟩ : BufTy).Contents (Elt F)) (e : (⟨S2x1200000, .i32⟩ : BufTy).Contents (Elt F))
    (W1 : (⟨S64x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S100000x64, .f32⟩ : BufTy).Contents (Elt F) :=
  layer (layer x e W1 b1) e W2 b2

end Cert.Gcn

end
-- ==== Proof.Payload.lean ====
/-
  The two tile bodies read at an index, over the extended reals, and the two whole-array steps they are tiles of.

  * A tile of the dense step multiplies 10000 rows of x by the whole 64 × 64 weight matrix: entry (p, q) of the tile is
    ∑ₖ x[p, k] · W[k, q] (rounding the operands to bf16 changes nothing over the extended reals, and the accumulator
    starts at zero). The whole-array step x · W at (P, q) is the same sum over row P.
  * A tile of the last step adds the bias row to 10000 rows and takes the positive part: entry (p, q) is
    max (a[p, q] + r[0, q], 0); the whole-array step at (P, q) is the same expression of row P.
  * The bias laid out as a row by a reshape [64] → [1, 64] and by a broadcast along a new leading axis are one array.
-/
import proofs.«135384_j7275674600509_1_alg».proof.Proof.Gen.KernelIdeal.Skeleton
import proofs.«135384_j7275674600509_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Cert.KernelIdeal Cert.KernelIdeal.Gen Idealize.ShloMosaic Idealize.ShloMosaic.TcCoe Idealize.ShloMosaic.ValueIdx

/-- The corner every tile body loads from and stores to. -/
theorem origin2 : (![0, 0] : Fin 2 → Nat) = fun _ => 0 := funext fun a => by fin_cases a <;> rfl

/-! ## The dense step -/

/-- Row `p`, column `k` of a 10000-row tile. -/
abbrev tileRow (j : S10000x64.Idx) (k : Fin 64) : S10000x64.Idx := fun a => match a with
  | ⟨0, _⟩ => ⟨(j 0).val, (j 0).isLt⟩
  | ⟨1, _⟩ => ⟨k.val, k.isLt⟩
/-- Row `k` of the weight matrix, at the tile entry's column. -/
abbrev weightCol (j : S10000x64.Idx) (k : Fin 64) : S64x64.Idx := fun a => match a with
  | ⟨0, _⟩ => ⟨k.val, k.isLt⟩
  | ⟨1, _⟩ => ⟨(j 1).val, (j 1).isLt⟩

theorem tile_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem tile_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem tile_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem tile_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile of the dense step at an entry: the sum over the 64 features of the tile's row against the weight's column. -/
theorem tileProduct_apply (xb : Vec Ideal S10000x64 .f32) (w : Vec Ideal S64x64 .f32) (j : S10000x64.Idx) :
    k0_pay1 (F := Ideal) xb w j = ∑ k : Fin 64, xb (tileRow j k) * w (weightCol j k) := by
  show FloatOps.matmul (F := Ideal) dot_S10000x64_S64x64_S10000x64_1_0_0_1_n_n none (truncf (F := Ideal) .bf16 xb bitsLt_bf16_f32) (truncf (F := Ideal) .bf16 w bitsLt_bf16_f32) (constant (F := Ideal) S10000x64 .f32 0x00000000#32) j = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = tileRow j k := funext fun a => Fin.ext (by
    match a with
    | ⟨0, _⟩ => exact tile_lhs_0 _ _
    | ⟨1, _⟩ => exact (tile_lhs_1 _ _).trans hk)
  have er : dot_S10000x64_S64x64_S10000x64_1_0_0_1_n_n.rhsIdx j ((ValueIdx.contrEquiv1 dot_S10000x64_S64x64_S10000x64_1_0_0_1_n_n 64 rfl rfl).symm k) = weightCol j k := funext fun a => Fin.ext (by
    match a with
    | ⟨0, _⟩ => exact (tile_rhs_0 _ _).trans hk
    | ⟨1, _⟩ => exact tile_rhs_1 _ _)
  rw [el, er]
  rfl

/-- The four dense tiles are one body. -/
theorem k2_pay1_eq : @k2_pay1 Ideal _ = @k0_pay1 Ideal _ := rfl
theorem k4_pay1_eq (xb : Vec Ideal S10000x64 .f32) (w : Vec Ideal S64x64 .f32) : k4_pay1 (F := Ideal) xb w = k0_pay1 xb w := by
  show k0_pay1 (F := Ideal) (shapeCast S10000x64 xb shapeCasts_S10000x64_S10000x64) w = _
  rw [shapeCast_self]
theorem k6_pay1_eq (xb : Vec Ideal S10000x64 .f32) (w : Vec Ideal S64x64 .f32) : k6_pay1 (F := Ideal) xb w = k0_pay1 xb w := by
  show k0_pay1 (F := Ideal) (shapeCast S10000x64 xb shapeCasts_S10000x64_S10000x64) w = _
  rw [shapeCast_self]

/-- Row `P`, column `k` of the whole feature array. -/
abbrev wholeRow (i : Cert.ReferenceIdeal.S100000x64.Idx) (k : Fin 64) : Cert.ReferenceIdeal.S100000x64.Idx := fun a => match a with
  | ⟨0, _⟩ => ⟨(i 0).val, (i 0).isLt⟩
  | ⟨1, _⟩ => ⟨k.val, k.isLt⟩
/-- Row `k` of the weight matrix, at the entry's column. -/
abbrev wholeCol (i : Cert.ReferenceIdeal.S100000x64.Idx) (k : Fin 64) : Cert.ReferenceIdeal.S64x64.Idx := fun a => match a with
  | ⟨0, _⟩ => ⟨k.val, k.isLt⟩
  | ⟨1, _⟩ => ⟨(i 1).val, (i 1).isLt⟩

theorem whole_lhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem whole_lhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem whole_rhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem whole_rhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole dense step at an entry: the same sum, over the whole array's row. -/
theorem project_apply (x : (⟨Cert.ReferenceIdeal.S100000x64, .f32⟩ : BufTy).Contents (Elt Ideal)) (W : (⟨Cert.ReferenceIdeal.S64x64, .f32⟩ : BufTy).Contents (Elt Ideal))
    (i : Cert.ReferenceIdeal.S100000x64.Idx) :
    project (F := Ideal) x W i = ∑ k : Fin 64, x (wholeRow i k) * W (wholeCol i k) := by
  unfold project
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = wholeRow i k := funext fun a => Fin.ext (by
    match a with
    | ⟨0, _⟩ => exact whole_lhs_0 _ _
    | ⟨1, _⟩ => exact (whole_lhs_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = wholeCol i k := funext fun a => Fin.ext (by
    match a with
    | ⟨0, _⟩ => exact (whole_rhs_0 _ _).trans hk
    | ⟨1, _⟩ => exact whole_rhs_1 _ _)
  rw [el, er]

/-! ## The bias and the positive part -/

/-- The zero a tile compares with and the zero the whole-array step compares with are one number. -/
theorem zeros_apply (i : Cert.ReferenceIdeal.S100000x64.Idx) :
    broadcastInDim Cert.ReferenceIdeal.S100000x64 ![] Cert.ReferenceIdeal.Gen.bcast_S_S100000x64 (constant (F := Ideal) Cert.ReferenceIdeal.S_ .f32 0x00000000#32) i = Ideal.ofBits .f32 0x00000000#32 :=
  broadcastInDim_apply _ _ _ i ix0 (fun a => a.elim0)

/-- A tile of the last step at an entry. -/
theorem tileBias_apply (ab : Vec Ideal S10000x64 .f32) (rb : Vec Ideal S1x64 .f32) (p : Fin 10000) (q : Fin 64) :
    k1_pay1 (F := Ideal) ab rb (ix2 p q) = max (ab (ix2 p q) + rb (ix2 (0 : Fin 1) q)) (Ideal.ofBits .f32 0x00000000#32) := by
  show max (shapeCast S10000x64 ab shapeCasts_S10000x64_S10000x64 (ix2 p q) + broadcastTo S10000x64 (shapeCast S1x64 rb shapeCasts_S1x64_S1x64) broadcasts_S1x64_S10000x64 (ix2 p q)) (Ideal.ofBits .f32 0x00000000#32) = _
  rw [shapeCast_self, shapeCast_self, broadcastTo_1b_ab_apply]

theorem k3_pay1_eq : @k3_pay1 Ideal _ = @k1_pay1 Ideal _ := rfl
theorem k5_pay1_eq : @k5_pay1 Ideal _ = @k1_pay1 Ideal _ := rfl
theorem k7_pay1_eq : @k7_pay1 Ideal _ = @k1_pay1 Ideal _ := rfl

/-- The whole last step at an entry. -/
theorem addRowRelu_apply (a : (⟨Cert.ReferenceIdeal.S100000x64, .f32⟩ : BufTy).Contents (Elt Ideal)) (r : (⟨Cert.ReferenceIdeal.S1x64, .f32⟩ : BufTy).Contents (Elt Ideal))
    (P : Fin 100000) (q : Fin 64) :
    addRowRelu (F := Ideal) a r (ix2 P q) = max (a (ix2 P q) + r (ix2 (0 : Fin 1) q)) (Ideal.ofBits .f32 0x00000000#32) := by
  show max (a (ix2 P q) + broadcastInDim Cert.ReferenceIdeal.S100000x64 ![0, 1] Cert.ReferenceIdeal.Gen.bcast_S1x64_S100000x64_0_1 r (ix2 P q))
      (broadcastInDim Cert.ReferenceIdeal.S100000x64 ![] Cert.ReferenceIdeal.Gen.bcast_S_S100000x64 (constant (F := Ideal) Cert.ReferenceIdeal.S_ .f32 0x00000000#32) (ix2 P q)) = _
  rw [zeros_apply, broadcastInDim_apply ![0, 1] Cert.ReferenceIdeal.Gen.bcast_S1x64_S100000x64_0_1 r (ix2 P q) (ix2 (0 : Fin 1) q) (fun ax => by
    match ax with
    | ⟨0, _⟩ => rfl
    | ⟨1, _⟩ => rfl)]

/-- The bias as a row, by a reshape or by a broadcast along a new leading axis: one array. -/
theorem asRow_eq_reshape {α : Type} (b : Cert.ReferenceIdeal.S64.Idx → α) (h : Cert.ReferenceIdeal.S64.ShapeCasts Cert.ReferenceIdeal.S1x64) :
    broadcastInDim Cert.ReferenceIdeal.S1x64 ![1] Cert.ReferenceIdeal.Gen.bcast_S64_S1x64_1 b = shapeCast Cert.ReferenceIdeal.S1x64 b h := by
  funext j
  obtain ⟨u, q, rfl⟩ : ∃ (u : Fin 1) (q : Fin 64), j = ix2 u q := ⟨j 0, j 1, eq_ix2 j⟩
  rw [shapeCast_a_1a_apply b h u q]
  exact broadcastInDim_apply ![1] Cert.ReferenceIdeal.Gen.bcast_S64_S1x64_1 b (ix2 u q) (ix1 q) (fun ax => by
    match ax with
    | ⟨0, _⟩ => rfl)

/-- The sparse step of equal arrays is equal. -/
theorem gatherScatter_congr {F : FTy → Type} [FloatOps F]
    {y y' : (⟨Cert.ReferenceIdeal.S100000x64, .f32⟩ : BufTy).Contents (Elt F)} {s s' d d' : (⟨Cert.ReferenceIdeal.S1300000, .i32⟩ : BufTy).Contents (Elt F)}
    {wt wt' : (⟨Cert.ReferenceIdeal.S1300000, .f32⟩ : BufTy).Contents (Elt F)} (h1 : y = y') (h2 : s = s') (h3 : d = d') (h4 : wt = wt') :
    gatherScatter y s d wt = gatherScatter y' s' d' wt' := by
  subst h1 h2 h3 h4; rfl

end Cert.Gcn

end
-- ==== Proof.HostSteps.lean ====
/-
  The stretches of host operations between the tiled calls, each read as a function of the buffer contents it starts
  from. The five stretches before the first call compute, for each of the two graphs, the self-looped source and
  destination lists and the edge weights; each later stretch is one sparse step (gather the projected rows along the
  sources, scale by the weights, sum at the destinations) and the reshape of a bias to a row.
-/
import proofs.«135384_j7275674600509_1_alg».proof.Proof.Gen.KernelIdeal.Launch
import proofs.«135384_j7275674600509_1_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

set_option maxHeartbeats 4000000 in
/-- The host operations between two tiled calls: the sparse step over the edge arrays the stretch finds, and the
    bias reshaped to a row. -/
theorem sparse1 : after (hostOps1 (F := F)) V (Proc.devRef .tc main_v73) = Cert.Gcn.gatherScatter (V (Proc.devRef .tc main_v60)) (V (Proc.devRef .tc main_v3)) (V (Proc.devRef .tc main_v6)) (V (Proc.devRef .tc main_v29)) := by
  after_results
  rfl
set_option maxHeartbeats 4000000 in
theorem row1 : after (hostOps1 (F := F)) V (Proc.devRef .tc main_v74) = shapeCast S1x64 (V (Proc.devRef .tc main_arg5)) shapeCasts_S64_S1x64 := by
  after_results
  rfl

set_option maxHeartbeats 4000000 in
/-- The host operations between two tiled calls: the sparse step over the edge arrays the stretch finds, and the
    bias reshaped to a row. -/
theorem sparse3 : after (hostOps3 (F := F)) V (Proc.devRef .tc main_v89) = Cert.Gcn.gatherScatter (V (Proc.devRef .tc main_v76)) (V (Proc.devRef .tc main_v33)) (V (Proc.devRef .tc main_v36)) (V (Proc.devRef .tc main_v59)) := by
  after_results
  rfl
set_option maxHeartbeats 4000000 in
theorem row3 : after (hostOps3 (F := F)) V (Proc.devRef .tc main_v90) = shapeCast S1x64 (V (Proc.devRef .tc main_arg5)) shapeCasts_S64_S1x64 := by
  after_results
  rfl

set_option maxHeartbeats 4000000 in
/-- The host operations between two tiled calls: the sparse step over the edge arrays the stretch finds, and the
    bias reshaped to a row. -/
theorem sparse5 : after (hostOps5 (F := F)) V (Proc.devRef .tc main_v105) = Cert.Gcn.gatherScatter (V (Proc.devRef .tc main_v92)) (V (Proc.devRef .tc main_v3)) (V (Proc.devRef .tc main_v6)) (V (Proc.devRef .tc main_v29)) := by
  after_results
  rfl
set_option maxHeartbeats 4000000 in
theorem row5 : after (hostOps5 (F := F)) V (Proc.devRef .tc main_v106) = shapeCast S1x64 (V (Proc.devRef .tc main_arg7)) shapeCasts_S64_S1x64 := by
  after_results
  rfl

set_option maxHeartbeats 4000000 in
/-- The host operations between two tiled calls: the sparse step over the edge arrays the stretch finds, and the
    bias reshaped to a row. -/
theorem sparse7 : after (hostOps7 (F := F)) V (Proc.devRef .tc main_v121) = Cert.Gcn.gatherScatter (V (Proc.devRef .tc main_v108)) (V (Proc.devRef .tc main_v33)) (V (Proc.devRef .tc main_v36)) (V (Proc.devRef .tc main_v59)) := by
  after_results
  rfl
set_option maxHeartbeats 4000000 in
theorem row7 : after (hostOps7 (F := F)) V (Proc.devRef .tc main_v122) = shapeCast S1x64 (V (Proc.devRef .tc main_arg7)) shapeCasts_S64_S1x64 := by
  after_results
  rfl

/-- The five stretches before the first tiled call, in order. -/
def prep (V : Valuation τ sig (Elt F)) : Valuation τ sig (Elt F) :=
  after hostOps0_4 (after hostOps0_3 (after hostOps0_2 (after hostOps0_1 (after hostOps0 V))))

set_option maxHeartbeats 4000000 in
theorem prep_sources1 : prep V (Proc.devRef .tc main_v3) = Cert.Gcn.sources (V (Proc.devRef .tc main_arg2)) := by
  unfold prep; after_results_simp <;> rfl
set_option maxHeartbeats 4000000 in
theorem prep_targets1 : prep V (Proc.devRef .tc main_v6) = Cert.Gcn.targets (V (Proc.devRef .tc main_arg2)) := by
  unfold prep; after_results_simp <;> rfl
set_option maxHeartbeats 4000000 in
theorem prep_weight1 : prep V (Proc.devRef .tc main_v29) = Cert.Gcn.edgeWeight (V (Proc.devRef .tc main_arg2)) := by
  unfold prep; after_results_simp <;> rfl
set_option maxHeartbeats 4000000 in
theorem prep_sources2 : prep V (Proc.devRef .tc main_v33) = Cert.Gcn.sources (V (Proc.devRef .tc main_arg3)) := by
  unfold prep; after_results_simp <;> rfl
set_option maxHeartbeats 4000000 in
theorem prep_targets2 : prep V (Proc.devRef .tc main_v36) = Cert.Gcn.targets (V (Proc.devRef .tc main_arg3)) := by
  unfold prep; after_results_simp <;> rfl
set_option maxHeartbeats 4000000 in
theorem prep_weight2 : prep V (Proc.devRef .tc main_v59) = Cert.Gcn.edgeWeight (V (Proc.devRef .tc main_arg3)) := by
  unfold prep; after_results_simp <;> rfl

end Cert.KernelIdeal.Host

end
-- ==== Proof.KeepEdges1.lean ====
/-
  Buffers that outlive the stretch in which they are computed: the first graph's source list, destination list and edge weights, from the end of the preparation to the two sparse steps that read them. A stretch of host operations leaves a buffer
  alone when none of its operations writes it; a tiled call leaves alone every buffer that is not one of its three
  arrays, and hands back its two input arrays as it found them.
-/
import proofs.«135384_j7275674600509_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Nothing between boundary 5 and boundary 6 writes `main_v3`. -/
theorem keep_v3_5_6 (c : Dev nD) : W6 m ρ c (Proc.devRef .tc main_v3) = W5 m ρ c (Proc.devRef .tc main_v3) :=
  calc W6 m ρ c (Proc.devRef .tc main_v3)
    _ = W5 m ρ c (Proc.devRef .tc main_v3) := W6_of_ne m ρ c main_v3 (by decide)

/-- Nothing between boundary 5 and boundary 6 writes `main_v6`. -/
theorem keep_v6_5_6 (c : Dev nD) : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

/-- Nothing between boundary 5 and boundary 6 writes `main_v29`. -/
theorem keep_v29_5_6 (c : Dev nD) : W6 m ρ c (Proc.devRef .tc main_v29) = W5 m ρ c (Proc.devRef .tc main_v29) :=
  calc W6 m ρ c (Proc.devRef .tc main_v29)
    _ = W5 m ρ c (Proc.devRef .tc main_v29) := W6_of_ne m ρ c main_v29 (by decide)

/-- Nothing between boundary 6 and boundary 12 writes `main_v3`. -/
theorem keep_v3_6_12 (c : Dev nD) : W12 m ρ c (Proc.devRef .tc main_v3) = W6 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 6 and boundary 12 writes `main_v6`. -/
theorem keep_v6_6_12 (c : Dev nD) : W12 m ρ c (Proc.devRef .tc main_v6) = W6 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 6 and boundary 12 writes `main_v29`. -/
theorem keep_v29_6_12 (c : Dev nD) : W12 m ρ c (Proc.devRef .tc main_v29) = W6 m ρ c (Proc.devRef .tc main_v29) :=
  calc W12 m ρ c (Proc.devRef .tc main_v29)
    _ = W11 m ρ c (Proc.devRef .tc main_v29) := W12_of_ne m ρ c main_v29 (by decide)
    _ = W10 m ρ c (Proc.devRef .tc main_v29) := W11_of_ne m ρ c main_v29 (by decide)
    _ = W9 m ρ c (Proc.devRef .tc main_v29) := StableHlo.after_of_forall_not_mem (b := Proc.devRef .tc main_v29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.KeepEdges2.lean ====
/-
  Buffers that outlive the stretch in which they are computed: the second graph's source list, destination list and edge weights, from the end of the preparation to the two sparse steps that read them. A stretch of host operations leaves a buffer
  alone when none of its operations writes it; a tiled call leaves alone every buffer that is not one of its three
  arrays, and hands back its two input arrays as it found them.
-/
import proofs.«135384_j7275674600509_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Nothing between boundary 5 and boundary 9 writes `main_v33`. -/
theorem keep_v33_5_9 (c : Dev nD) : W9 m ρ c (Proc.devRef .tc main_v33) = W5 m ρ c (Proc.devRef .tc main_v33) :=
  calc W9 m ρ c (Proc.devRef .tc main_v33)
    _ = W8 m ρ c (Proc.devRef .tc main_v33) := W9_of_ne m ρ c main_v33 (by decide)
    _ = W7 m ρ c (Proc.devRef .tc main_v33) := W8_of_ne m ρ c main_v33 (by decide)
    _ = W6 m ρ c (Proc.devRef .tc main_v33) := StableHlo.after_of_forall_not_mem (b := Proc.devRef .tc main_v33) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v33) := W6_of_ne m ρ c main_v33 (by decide)

/-- Nothing between boundary 5 and boundary 9 writes `main_v36`. -/
theorem keep_v36_5_9 (c : Dev nD) : W9 m ρ c (Proc.devRef .tc main_v36) = W5 m ρ c (Proc.devRef .tc main_v36) :=
  calc W9 m ρ c (Proc.devRef .tc main_v36)
    _ = W8 m ρ c (Proc.devRef .tc main_v36) := W9_of_ne m ρ c main_v36 (by decide)
    _ = W7 m ρ c (Proc.devRef .tc main_v36) := W8_of_ne m ρ c main_v36 (by decide)
    _ = W6 m ρ c (Proc.devRef .tc main_v36) := StableHlo.after_of_forall_not_mem (b := Proc.devRef .tc main_v36) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v36) := W6_of_ne m ρ c main_v36 (by decide)

/-- Nothing between boundary 5 and boundary 9 writes `main_v59`. -/
theorem keep_v59_5_9 (c : Dev nD) : W9 m ρ c (Proc.devRef .tc main_v59) = W5 m ρ c (Proc.devRef .tc main_v59) :=
  calc W9 m ρ c (Proc.devRef .tc main_v59)
    _ = W8 m ρ c (Proc.devRef .tc main_v59) := W9_of_ne m ρ c main_v59 (by decide)
    _ = W7 m ρ c (Proc.devRef .tc main_v59) := W8_of_ne m ρ c main_v59 (by decide)
    _ = W6 m ρ c (Proc.devRef .tc main_v59) := StableHlo.after_of_forall_not_mem (b := Proc.devRef .tc main_v59) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v59) := W6_of_ne m ρ c main_v59 (by decide)

/-- Nothing between boundary 9 and boundary 15 writes `main_v33`. -/
theorem keep_v33_9_15 (c : Dev nD) : W15 m ρ c (Proc.devRef .tc main_v33) = W9 m ρ c (Proc.devRef .tc main_v33) :=
  calc W15 m ρ c (Proc.devRef .tc main_v33)
    _ = W14 m ρ c (Proc.devRef .tc main_v33) := W15_of_ne m ρ c main_v33 (by decide)
    _ = W13 m ρ c (Proc.devRef .tc main_v33) := W14_of_ne m ρ c main_v33 (by decide)
    _ = W12 m ρ c (Proc.devRef .tc main_v33) := StableHlo.after_of_forall_not_mem (b := Proc.devRef .tc main_v33) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v33) := W12_of_ne m ρ c main_v33 (by decide)
    _ = W10 m ρ c (Proc.devRef .tc main_v33) := W11_of_ne m ρ c main_v33 (by decide)
    _ = W9 m ρ c (Proc.devRef .tc main_v33) := StableHlo.after_of_forall_not_mem (b := Proc.devRef .tc main_v33) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 9 and boundary 15 writes `main_v36`. -/
theorem keep_v36_9_15 (c : Dev nD) : W15 m ρ c (Proc.devRef .tc main_v36) = W9 m ρ c (Proc.devRef .tc main_v36) :=
  calc W15 m ρ c (Proc.devRef .tc main_v36)
    _ = W14 m ρ c (Proc.devRef .tc main_v36) := W15_of_ne m ρ c main_v36 (by decide)
    _ = W13 m ρ c (Proc.devRef .tc main_v36) := W14_of_ne m ρ c main_v36 (by decide)
    _ = W12 m ρ c (Proc.devRef .tc main_v36) := StableHlo.after_of_forall_not_mem (b := Proc.devRef .tc main_v36) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v36) := W12_of_ne m ρ c main_v36 (by decide)
    _ = W10 m ρ c (Proc.devRef .tc main_v36) := W11_of_ne m ρ c main_v36 (by decide)
    _ = W9 m ρ c (Proc.devRef .tc main_v36) := StableHlo.after_of_forall_not_mem (b := Proc.devRef .tc main_v36) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 9 and boundary 15 writes `main_v59`. -/
theorem keep_v59_9_15 (c : Dev nD) : W15 m ρ c (Proc.devRef .tc main_v59) = W9 m ρ c (Proc.devRef .tc main_v59) :=
  calc W15 m ρ c (Proc.devRef .tc main_v59)
    _ = W14 m ρ c (Proc.devRef .tc main_v59) := W15_of_ne m ρ c main_v59 (by decide)
    _ = W13 m ρ c (Proc.devRef .tc main_v59) := W14_of_ne m ρ c main_v59 (by decide)
    _ = W12 m ρ c (Proc.devRef .tc main_v59) := StableHlo.after_of_forall_not_mem (b := Proc.devRef .tc main_v59) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v59) := W12_of_ne m ρ c main_v59 (by decide)
    _ = W10 m ρ c (Proc.devRef .tc main_v59) := W11_of_ne m ρ c main_v59 (by decide)
    _ = W9 m ρ c (Proc.devRef .tc main_v59) := StableHlo.after_of_forall_not_mem (b := Proc.devRef .tc main_v59) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.KeepArgsA.lean ====
/-
  Buffers that outlive the stretch in which they are computed: the first layer's arguments (the two feature arrays, the weight matrix and the bias), from the launch to the calls and reshapes that read them. A stretch of host operations leaves a buffer
  alone when none of its operations writes it; a tiled call leaves alone every buffer that is not one of its three
  arrays, and hands back its two input arrays as it found them.
-/
import proofs.«135384_j7275674600509_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Nothing between boundary 0 and boundary 5 writes `main_arg0`. -/
theorem keep_arg0_0_5 (c : Dev nD) : W5 m ρ c (Proc.devRef .tc main_arg0) = W0 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 5 writes `main_arg4`. -/
theorem keep_arg4_0_5 (c : Dev nD) : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 5 and boundary 8 writes `main_arg4`. -/
theorem keep_arg4_5_8 (c : Dev nD) : W8 m ρ c (Proc.devRef .tc main_arg4) = W5 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := (W6_arr m ρ c 1).trans (((dat0 (V5 m ρ) c).arrAt_in 1 rfl _).trans (A_eq0 (V5 m ρ) c 1))

/-- Nothing between boundary 0 and boundary 8 writes `main_arg1`. -/
theorem keep_arg1_0_8 (c : Dev nD) : W8 m ρ c (Proc.devRef .tc main_arg1) = W0 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 6 writes `main_arg5`. -/
theorem keep_arg5_0_6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 6 and boundary 9 writes `main_arg5`. -/
theorem keep_arg5_6_9 (c : Dev nD) : W9 m ρ c (Proc.devRef .tc main_arg5) = W6 m ρ c (Proc.devRef .tc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.KeepArgsB.lean ====
/-
  Buffers that outlive the stretch in which they are computed: the second layer's arguments (the weight matrix and the bias), from the launch to the calls and reshapes that read them. A stretch of host operations leaves a buffer
  alone when none of its operations writes it; a tiled call leaves alone every buffer that is not one of its three
  arrays, and hands back its two input arrays as it found them.
-/
import proofs.«135384_j7275674600509_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Nothing between boundary 0 and boundary 11 writes `main_arg6`. -/
theorem keep_arg6_0_11 (c : Dev nD) : W11 m ρ c (Proc.devRef .tc main_arg6) = W0 m ρ c (Proc.devRef .tc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 11 and boundary 14 writes `main_arg6`. -/
theorem keep_arg6_11_14 (c : Dev nD) : W14 m ρ c (Proc.devRef .tc main_arg6) = W11 m ρ c (Proc.devRef .tc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg6) := (W12_arr m ρ c 1).trans (((dat4 (V11 m ρ) c).arrAt_in 1 rfl _).trans (A_eq4 (V11 m ρ) c 1))

/-- Nothing between boundary 0 and boundary 12 writes `main_arg7`. -/
theorem keep_arg7_0_12 (c : Dev nD) : W12 m ρ c (Proc.devRef .tc main_arg7) = W0 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 12 and boundary 15 writes `main_arg7`. -/
theorem keep_arg7_12_15 (c : Dev nD) : W15 m ρ c (Proc.devRef .tc main_arg7) = W12 m ρ c (Proc.devRef .tc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.KeepFeatures.lean ====
/-
  Buffers that outlive the stretch in which they are computed: each layer's output features, from the call that writes them to the call that reads them, and the first result to the return. A stretch of host operations leaves a buffer
  alone when none of its operations writes it; a tiled call leaves alone every buffer that is not one of its three
  arrays, and hands back its two input arrays as it found them.
-/
import proofs.«135384_j7275674600509_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Nothing between boundary 8 and boundary 11 writes `main_v75`. -/
theorem keep_v75_8_11 (c : Dev nD) : W11 m ρ c (Proc.devRef .tc main_v75) = W8 m ρ c (Proc.devRef .tc main_v75) :=
  calc W11 m ρ c (Proc.devRef .tc main_v75)
    _ = W10 m ρ c (Proc.devRef .tc main_v75) := W11_of_ne m ρ c main_v75 (by decide)
    _ = W9 m ρ c (Proc.devRef .tc main_v75) := StableHlo.after_of_forall_not_mem (b := Proc.devRef .tc main_v75) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v75) := W9_of_ne m ρ c main_v75 (by decide)

/-- Nothing between boundary 11 and boundary 14 writes `main_v91`. -/
theorem keep_v91_11_14 (c : Dev nD) : W14 m ρ c (Proc.devRef .tc main_v91) = W11 m ρ c (Proc.devRef .tc main_v91) :=
  calc W14 m ρ c (Proc.devRef .tc main_v91)
    _ = W13 m ρ c (Proc.devRef .tc main_v91) := W14_of_ne m ρ c main_v91 (by decide)
    _ = W12 m ρ c (Proc.devRef .tc main_v91) := StableHlo.after_of_forall_not_mem (b := Proc.devRef .tc main_v91) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v91) := W12_of_ne m ρ c main_v91 (by decide)

/-- Nothing between boundary 14 and boundary 17 writes `main_v107`. -/
theorem keep_v107_14_17 (c : Dev nD) : W17 m ρ c (Proc.devRef .tc main_v107) = W14 m ρ c (Proc.devRef .tc main_v107) :=
  calc W17 m ρ c (Proc.devRef .tc main_v107)
    _ = W16 m ρ c (Proc.devRef .tc main_v107) := W17_of_ne m ρ c main_v107 (by decide)
    _ = W15 m ρ c (Proc.devRef .tc main_v107) := StableHlo.after_of_forall_not_mem (b := Proc.devRef .tc main_v107) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_v107) := W15_of_ne m ρ c main_v107 (by decide)

end Cert.KernelIdeal.Keep

end
-- ==== Proof.Tile0.lean ====
/-
  Tiled call 0: the dense step by tiles of 10000 rows. Grid point t multiplies rows 10000·t … 10000·t + 9999 of the
  feature array by the whole weight matrix and writes the product back as rows 10000·t … of the output, so each
  written tile is that tile of the whole product x · W; the ten tiles cover the 100000 rows, and the output array
  ends holding x · W.
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the feature and output windows move together down the rows,
    the weight window stays at the one whole block. -/
theorem points0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every one of the ten row tiles is some grid point's. -/
theorem everyTile0 : ∀ q : Fin 10, ∃ t : Fin cfg0.N, win0_2.index t = ![q.val, 0] :=
  (by decide +kernel : ∀ q : Fin 10, ∃ t : Fin grid0.N, win0_2.index t = ![q.val, 0])

/-- What grid point `t` writes back is tile `t` of the whole product. -/
theorem written0 (c : Dev nD) (t : Fin cfg0.N) :
    (dat0 V c).flushed 2 t = ((cfg0.win 2).blk t).view.read (Elt Ideal) (Cert.Gcn.project (V c main_arg0) (V c main_arg4)) := by
  show (cfg0.win 2).cut (grid0.coords t) ((dat0 V c).after 2 t) = _
  rw [after0_2]
  unfold out0_2
  rw [View.canon_unit_zero Cert.Gcn.origin2]
  simp only [View.ld_unit_zero (S := S10000x64) Cert.Gcn.origin2, View.ld_unit_zero (S := S64x64) Cert.Gcn.origin2]
  obtain ⟨e0, e1, e2, e3, e4⟩ := points0 t
  funext j
  show k0_pay1 (iblk0 V c 0 t) (iblk0 V c 1 t) j = Cert.Gcn.project (V c main_arg0) (V c main_arg4) (((cfg0.win 2).blk t).view.emb j)
  refine (Cert.Gcn.tileProduct_apply _ _ j).trans ?_
  refine Eq.trans ?_ (Cert.Gcn.project_apply _ _ _).symm
  refine Finset.sum_congr rfl fun k _ => ?_
  have hj0 : (j 0).val < 10000 := (j 0).isLt
  have hj1 : (j 1).val < 64 := (j 1).isLt
  have h0 : ((cfg0.win 0).blk t).view.emb (Cert.Gcn.tileRow j k) = Cert.Gcn.wholeRow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (Cert.Gcn.weightCol j k) = Cert.Gcn.wholeCol (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  conv_rhs => rw [← h0, ← h1]
  all_goals rfl

/-- An entry of the output array lies in grid point `t`'s tile iff each coordinate lies in the tile's range. -/
theorem inTile0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v60).slice (win0_2.rect t)).set ↔ _
  rw [View.set_slice_whole, Rect.mem_set_unit]
  exact Iff.rfl

/-- Row r of the output lies in the tile of grid point r / 10000: the tiles cover the array. -/
theorem covered0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := everyTile0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [inTile0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call the output array holds x · W of the arrays the call found. -/
theorem dense0 (c : Dev nD) : (dat0 V c).arrAt 2 cfg0.N = Cert.Gcn.project (V c main_arg0) (V c main_arg4) :=
  (dat0 V c).arrAt_eq_of_cover 2 _ (fun t _ => written0 V c t) (covered0)

end Cert.KernelIdeal.Tiles

end
-- ==== Proof.Tile1.lean ====
/-
  Tiled call 1: the bias and the positive part by tiles of 10000 rows. Grid point t adds the bias row to rows
  10000·t … 10000·t + 9999 of the aggregated features, takes the positive part, and writes the result back as rows
  10000·t … of the output, so each written tile is that tile of the whole-array step; the ten tiles cover the
  100000 rows, and the output array ends holding max (a + row, 0).
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the input and output windows move together down the rows,
    the bias row's window stays at its one block. -/
theorem points1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) ≤ 9 :=
  (by decide +kernel : ∀ t : Fin grid1.N, _)

/-- Every one of the ten row tiles is some grid point's. -/
theorem everyTile1 : ∀ q : Fin 10, ∃ t : Fin cfg1.N, win1_2.index t = ![q.val, 0] :=
  (by decide +kernel : ∀ q : Fin 10, ∃ t : Fin grid1.N, win1_2.index t = ![q.val, 0])

/-- What grid point `t` writes back is tile `t` of the whole-array step. -/
theorem written1 (c : Dev nD) (t : Fin cfg1.N) :
    (dat1 V c).flushed 2 t = ((cfg1.win 2).blk t).view.read (Elt Ideal) (Cert.Gcn.addRowRelu (V c main_v73) (V c main_v74)) := by
  show (cfg1.win 2).cut (grid1.coords t) ((dat1 V c).after 2 t) = _
  rw [after1_2]
  unfold out1_2
  rw [View.canon_unit_zero Cert.Gcn.origin2]
  simp only [View.ld_unit_zero (S := S10000x64) Cert.Gcn.origin2, View.ld_unit_zero (S := S1x64) Cert.Gcn.origin2]
  obtain ⟨e0, e1, e2, e3, e4, e5⟩ := points1 t
  funext j
  obtain ⟨p, q, rfl⟩ : ∃ (p : Fin 10000) (q : Fin 64), j = ix2 p q := ⟨j 0, j 1, eq_ix2 j⟩
  have hp : p.val < 10000 := p.isLt
  have hP : win1_2.index t (0 : Fin 2) * 10000 + p.val < 100000 := by omega
  have h2 : ((cfg1.win 2).blk t).view.emb (ix2 p q) = ix2 (⟨win1_2.index t (0 : Fin 2) * 10000 + p.val, hP⟩ : Fin 100000) q := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 64 + 1 * q.val = q.val; omega
  have h0 : ((cfg1.win 0).blk t).view.emb (ix2 p q) = ix2 (⟨win1_2.index t (0 : Fin 2) * 10000 + p.val, hP⟩ : Fin 100000) q := by
    funext a; apply Fin.ext
    match a with
    | ⟨0, _⟩ => show win1_0.index t (0 : Fin 2) * 10000 + 1 * p.val = win1_2.index t (0 : Fin 2) * 10000 + p.val; omega
    | ⟨1, _⟩ => show win1_0.index t (1 : Fin 2) * 64 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  show k1_pay1 (iblk1 V c 0 t) (iblk1 V c 1 t) (ix2 p q) = Cert.Gcn.addRowRelu (V c main_v73) (V c main_v74) (((cfg1.win 2).blk t).view.emb (ix2 p q))
  rw [h2]
  refine (Cert.Gcn.tileBias_apply _ _ p q).trans ?_
  refine Eq.trans ?_ (Cert.Gcn.addRowRelu_apply _ _ _ q).symm
  conv_rhs => rw [← h0, ← h1]
  all_goals rfl

/-- An entry of the output array lies in grid point `t`'s tile iff each coordinate lies in the tile's range. -/
theorem inTile1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v75).slice (win1_2.rect t)).set ↔ _
  rw [View.set_slice_whole, Rect.mem_set_unit]
  exact Iff.rfl

/-- Row r of the output lies in the tile of grid point r / 10000: the tiles cover the array. -/
theorem covered1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := everyTile1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [inTile1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the call the output array holds the whole-array step of the arrays the call found. -/
theorem biased1 (c : Dev nD) : (dat1 V c).arrAt 2 cfg1.N = Cert.Gcn.addRowRelu (V c main_v73) (V c main_v74) :=
  (dat1 V c).arrAt_eq_of_cover 2 _ (fun t _ => written1 V c t) (covered1)

end Cert.KernelIdeal.Tiles

end
-- ==== Proof.Tile2.lean ====
/-
  Tiled call 2: the dense step by tiles of 10000 rows. Grid point t multiplies rows 10000·t … 10000·t + 9999 of the
  feature array by the whole weight matrix and writes the product back as rows 10000·t … of the output, so each
  written tile is that tile of the whole product x · W; the ten tiles cover the 100000 rows, and the output array
  ends holding x · W.
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the feature and output windows move together down the rows,
    the weight window stays at the one whole block. -/
theorem points2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every one of the ten row tiles is some grid point's. -/
theorem everyTile2 : ∀ q : Fin 10, ∃ t : Fin cfg2.N, win2_2.index t = ![q.val, 0] :=
  (by decide +kernel : ∀ q : Fin 10, ∃ t : Fin grid2.N, win2_2.index t = ![q.val, 0])

/-- What grid point `t` writes back is tile `t` of the whole product. -/
theorem written2 (c : Dev nD) (t : Fin cfg2.N) :
    (dat2 V c).flushed 2 t = ((cfg2.win 2).blk t).view.read (Elt Ideal) (Cert.Gcn.project (V c main_arg1) (V c main_arg4)) := by
  show (cfg2.win 2).cut (grid2.coords t) ((dat2 V c).after 2 t) = _
  rw [after2_2]
  unfold out2_2
  rw [View.canon_unit_zero Cert.Gcn.origin2]
  simp only [View.ld_unit_zero (S := S10000x64) Cert.Gcn.origin2, View.ld_unit_zero (S := S64x64) Cert.Gcn.origin2]
  obtain ⟨e0, e1, e2, e3, e4⟩ := points2 t
  funext j
  show k0_pay1 (iblk2 V c 0 t) (iblk2 V c 1 t) j = Cert.Gcn.project (V c main_arg1) (V c main_arg4) (((cfg2.win 2).blk t).view.emb j)
  refine (Cert.Gcn.tileProduct_apply _ _ j).trans ?_
  refine Eq.trans ?_ (Cert.Gcn.project_apply _ _ _).symm
  refine Finset.sum_congr rfl fun k _ => ?_
  have hj0 : (j 0).val < 10000 := (j 0).isLt
  have hj1 : (j 1).val < 64 := (j 1).isLt
  have h0 : ((cfg2.win 0).blk t).view.emb (Cert.Gcn.tileRow j k) = Cert.Gcn.wholeRow (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (Cert.Gcn.weightCol j k) = Cert.Gcn.wholeCol (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  conv_rhs => rw [← h0, ← h1]
  all_goals rfl

/-- An entry of the output array lies in grid point `t`'s tile iff each coordinate lies in the tile's range. -/
theorem inTile2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v76).slice (win2_2.rect t)).set ↔ _
  rw [View.set_slice_whole, Rect.mem_set_unit]
  exact Iff.rfl

/-- Row r of the output lies in the tile of grid point r / 10000: the tiles cover the array. -/
theorem covered2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := everyTile2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [inTile2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the call the output array holds x · W of the arrays the call found. -/
theorem dense2 (c : Dev nD) : (dat2 V c).arrAt 2 cfg2.N = Cert.Gcn.project (V c main_arg1) (V c main_arg4) :=
  (dat2 V c).arrAt_eq_of_cover 2 _ (fun t _ => written2 V c t) (covered2)

end Cert.KernelIdeal.Tiles

end
-- ==== Proof.Tile3.lean ====
/-
  Tiled call 3: the bias and the positive part by tiles of 10000 rows. Grid point t adds the bias row to rows
  10000·t … 10000·t + 9999 of the aggregated features, takes the positive part, and writes the result back as rows
  10000·t … of the output, so each written tile is that tile of the whole-array step; the ten tiles cover the
  100000 rows, and the output array ends holding max (a + row, 0).
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the input and output windows move together down the rows,
    the bias row's window stays at its one block. -/
theorem points3 : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0 ∧ win3_2.index t (1 : Fin 2) = 0 ∧ win3_2.index t (0 : Fin 2) ≤ 9 :=
  (by decide +kernel : ∀ t : Fin grid3.N, _)

/-- Every one of the ten row tiles is some grid point's. -/
theorem everyTile3 : ∀ q : Fin 10, ∃ t : Fin cfg3.N, win3_2.index t = ![q.val, 0] :=
  (by decide +kernel : ∀ q : Fin 10, ∃ t : Fin grid3.N, win3_2.index t = ![q.val, 0])

/-- What grid point `t` writes back is tile `t` of the whole-array step. -/
theorem written3 (c : Dev nD) (t : Fin cfg3.N) :
    (dat3 V c).flushed 2 t = ((cfg3.win 2).blk t).view.read (Elt Ideal) (Cert.Gcn.addRowRelu (V c main_v89) (V c main_v90)) := by
  show (cfg3.win 2).cut (grid3.coords t) ((dat3 V c).after 2 t) = _
  rw [after3_2]
  unfold out3_2
  rw [View.canon_unit_zero Cert.Gcn.origin2]
  simp only [View.ld_unit_zero (S := S10000x64) Cert.Gcn.origin2, View.ld_unit_zero (S := S1x64) Cert.Gcn.origin2]
  obtain ⟨e0, e1, e2, e3, e4, e5⟩ := points3 t
  funext j
  obtain ⟨p, q, rfl⟩ : ∃ (p : Fin 10000) (q : Fin 64), j = ix2 p q := ⟨j 0, j 1, eq_ix2 j⟩
  have hp : p.val < 10000 := p.isLt
  have hP : win3_2.index t (0 : Fin 2) * 10000 + p.val < 100000 := by omega
  have h2 : ((cfg3.win 2).blk t).view.emb (ix2 p q) = ix2 (⟨win3_2.index t (0 : Fin 2) * 10000 + p.val, hP⟩ : Fin 100000) q := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 64 + 1 * q.val = q.val; omega
  have h0 : ((cfg3.win 0).blk t).view.emb (ix2 p q) = ix2 (⟨win3_2.index t (0 : Fin 2) * 10000 + p.val, hP⟩ : Fin 100000) q := by
    funext a; apply Fin.ext
    match a with
    | ⟨0, _⟩ => show win3_0.index t (0 : Fin 2) * 10000 + 1 * p.val = win3_2.index t (0 : Fin 2) * 10000 + p.val; omega
    | ⟨1, _⟩ => show win3_0.index t (1 : Fin 2) * 64 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  show k1_pay1 (iblk3 V c 0 t) (iblk3 V c 1 t) (ix2 p q) = Cert.Gcn.addRowRelu (V c main_v89) (V c main_v90) (((cfg3.win 2).blk t).view.emb (ix2 p q))
  rw [h2]
  refine (Cert.Gcn.tileBias_apply _ _ p q).trans ?_
  refine Eq.trans ?_ (Cert.Gcn.addRowRelu_apply _ _ _ q).symm
  conv_rhs => rw [← h0, ← h1]
  all_goals rfl

/-- An entry of the output array lies in grid point `t`'s tile iff each coordinate lies in the tile's range. -/
theorem inTile3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v91).slice (win3_2.rect t)).set ↔ _
  rw [View.set_slice_whole, Rect.mem_set_unit]
  exact Iff.rfl

/-- Row r of the output lies in the tile of grid point r / 10000: the tiles cover the array. -/
theorem covered3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := everyTile3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [inTile3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the call the output array holds the whole-array step of the arrays the call found. -/
theorem biased3 (c : Dev nD) : (dat3 V c).arrAt 2 cfg3.N = Cert.Gcn.addRowRelu (V c main_v89) (V c main_v90) :=
  (dat3 V c).arrAt_eq_of_cover 2 _ (fun t _ => written3 V c t) (covered3)

end Cert.KernelIdeal.Tiles

end
-- ==== Proof.Tile4.lean ====
/-
  Tiled call 4: the dense step by tiles of 10000 rows. Grid point t multiplies rows 10000·t … 10000·t + 9999 of the
  feature array by the whole weight matrix and writes the product back as rows 10000·t … of the output, so each
  written tile is that tile of the whole product x · W; the ten tiles cover the 100000 rows, and the output array
  ends holding x · W.
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the feature and output windows move together down the rows,
    the weight window stays at the one whole block. -/
theorem points4 : ∀ t : Fin cfg4.N, win4_0.index t (0 : Fin 2) = win4_2.index t (0 : Fin 2) ∧ win4_0.index t (1 : Fin 2) = 0
    ∧ win4_1.index t (0 : Fin 2) = 0 ∧ win4_1.index t (1 : Fin 2) = 0 ∧ win4_2.index t (1 : Fin 2) = 0 :=
  (by decide +kernel : ∀ t : Fin grid4.N, _)

/-- Every one of the ten row tiles is some grid point's. -/
theorem everyTile4 : ∀ q : Fin 10, ∃ t : Fin cfg4.N, win4_2.index t = ![q.val, 0] :=
  (by decide +kernel : ∀ q : Fin 10, ∃ t : Fin grid4.N, win4_2.index t = ![q.val, 0])

/-- What grid point `t` writes back is tile `t` of the whole product. -/
theorem written4 (c : Dev nD) (t : Fin cfg4.N) :
    (dat4 V c).flushed 2 t = ((cfg4.win 2).blk t).view.read (Elt Ideal) (Cert.Gcn.project (V c main_v75) (V c main_arg6)) := by
  show (cfg4.win 2).cut (grid4.coords t) ((dat4 V c).after 2 t) = _
  rw [after4_2]
  unfold out4_2
  rw [View.canon_unit_zero Cert.Gcn.origin2]
  simp only [View.ld_unit_zero (S := S10000x64) Cert.Gcn.origin2, View.ld_unit_zero (S := S64x64) Cert.Gcn.origin2]
  obtain ⟨e0, e1, e2, e3, e4⟩ := points4 t
  funext j
  show k4_pay1 (iblk4 V c 0 t) (iblk4 V c 1 t) j = Cert.Gcn.project (V c main_v75) (V c main_arg6) (((cfg4.win 2).blk t).view.emb j)
  rw [Cert.Gcn.k4_pay1_eq]
  refine (Cert.Gcn.tileProduct_apply _ _ j).trans ?_
  refine Eq.trans ?_ (Cert.Gcn.project_apply _ _ _).symm
  refine Finset.sum_congr rfl fun k _ => ?_
  have hj0 : (j 0).val < 10000 := (j 0).isLt
  have hj1 : (j 1).val < 64 := (j 1).isLt
  have h0 : ((cfg4.win 0).blk t).view.emb (Cert.Gcn.tileRow j k) = Cert.Gcn.wholeRow (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  have h1 : ((cfg4.win 1).blk t).view.emb (Cert.Gcn.weightCol j k) = Cert.Gcn.wholeCol (((cfg4.win 2).blk t).view.emb j) k := by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  conv_rhs => rw [← h0, ← h1]
  all_goals rfl

/-- An entry of the output array lies in grid point `t`'s tile iff each coordinate lies in the tile's range. -/
theorem inTile4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v92).slice (win4_2.rect t)).set ↔ _
  rw [View.set_slice_whole, Rect.mem_set_unit]
  exact Iff.rfl

/-- Row r of the output lies in the tile of grid point r / 10000: the tiles cover the array. -/
theorem covered4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := everyTile4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [inTile4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the call the output array holds x · W of the arrays the call found. -/
theorem dense4 (c : Dev nD) : (dat4 V c).arrAt 2 cfg4.N = Cert.Gcn.project (V c main_v75) (V c main_arg6) :=
  (dat4 V c).arrAt_eq_of_cover 2 _ (fun t _ => written4 V c t) (covered4)

end Cert.KernelIdeal.Tiles

end
-- ==== Proof.Tile5.lean ====
/-
  Tiled call 5: the bias and the positive part by tiles of 10000 rows. Grid point t adds the bias row to rows
  10000·t … 10000·t + 9999 of the aggregated features, takes the positive part, and writes the result back as rows
  10000·t … of the output, so each written tile is that tile of the whole-array step; the ten tiles cover the
  100000 rows, and the output array ends holding max (a + row, 0).
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the input and output windows move together down the rows,
    the bias row's window stays at its one block. -/
theorem points5 : ∀ t : Fin cfg5.N, win5_0.index t (0 : Fin 2) = win5_2.index t (0 : Fin 2) ∧ win5_0.index t (1 : Fin 2) = 0
    ∧ win5_1.index t (0 : Fin 2) = 0 ∧ win5_1.index t (1 : Fin 2) = 0 ∧ win5_2.index t (1 : Fin 2) = 0 ∧ win5_2.index t (0 : Fin 2) ≤ 9 :=
  (by decide +kernel : ∀ t : Fin grid5.N, _)

/-- Every one of the ten row tiles is some grid point's. -/
theorem everyTile5 : ∀ q : Fin 10, ∃ t : Fin cfg5.N, win5_2.index t = ![q.val, 0] :=
  (by decide +kernel : ∀ q : Fin 10, ∃ t : Fin grid5.N, win5_2.index t = ![q.val, 0])

/-- What grid point `t` writes back is tile `t` of the whole-array step. -/
theorem written5 (c : Dev nD) (t : Fin cfg5.N) :
    (dat5 V c).flushed 2 t = ((cfg5.win 2).blk t).view.read (Elt Ideal) (Cert.Gcn.addRowRelu (V c main_v105) (V c main_v106)) := by
  show (cfg5.win 2).cut (grid5.coords t) ((dat5 V c).after 2 t) = _
  rw [after5_2]
  unfold out5_2
  rw [View.canon_unit_zero Cert.Gcn.origin2]
  simp only [View.ld_unit_zero (S := S10000x64) Cert.Gcn.origin2, View.ld_unit_zero (S := S1x64) Cert.Gcn.origin2]
  obtain ⟨e0, e1, e2, e3, e4, e5⟩ := points5 t
  funext j
  obtain ⟨p, q, rfl⟩ : ∃ (p : Fin 10000) (q : Fin 64), j = ix2 p q := ⟨j 0, j 1, eq_ix2 j⟩
  have hp : p.val < 10000 := p.isLt
  have hP : win5_2.index t (0 : Fin 2) * 10000 + p.val < 100000 := by omega
  have h2 : ((cfg5.win 2).blk t).view.emb (ix2 p q) = ix2 (⟨win5_2.index t (0 : Fin 2) * 10000 + p.val, hP⟩ : Fin 100000) q := by
    funext a; apply Fin.ext
    match a with
    | ⟨0, _⟩ => show win5_2.index t (0 : Fin 2) * 10000 + 1 * p.val = win5_2.index t (0 : Fin 2) * 10000 + p.val; omega
    | ⟨1, _⟩ => show win5_2.index t (1 : Fin 2) * 64 + 1 * q.val = q.val; omega
  have h0 : ((cfg5.win 0).blk t).view.emb (ix2 p q) = ix2 (⟨win5_2.index t (0 : Fin 2) * 10000 + p.val, hP⟩ : Fin 100000) q := by
    funext a; apply Fin.ext
    match a with
    | ⟨0, _⟩ => show win5_0.index t (0 : Fin 2) * 10000 + 1 * p.val = win5_2.index t (0 : Fin 2) * 10000 + p.val; omega
    | ⟨1, _⟩ => show win5_0.index t (1 : Fin 2) * 64 + 1 * q.val = q.val; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 64 + 1 * q.val = q.val; omega
  show k1_pay1 (iblk5 V c 0 t) (iblk5 V c 1 t) (ix2 p q) = Cert.Gcn.addRowRelu (V c main_v105) (V c main_v106) (((cfg5.win 2).blk t).view.emb (ix2 p q))
  rw [h2]
  refine (Cert.Gcn.tileBias_apply _ _ p q).trans ?_
  refine Eq.trans ?_ (Cert.Gcn.addRowRelu_apply _ _ _ q).symm
  conv_rhs => rw [← h0, ← h1]
  all_goals rfl

/-- An entry of the output array lies in grid point `t`'s tile iff each coordinate lies in the tile's range. -/
theorem inTile5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v107).slice (win5_2.rect t)).set ↔ _
  rw [View.set_slice_whole, Rect.mem_set_unit]
  exact Iff.rfl

/-- Row r of the output lies in the tile of grid point r / 10000: the tiles cover the array. -/
theorem covered5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := everyTile5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [inTile5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the call the output array holds the whole-array step of the arrays the call found. -/
theorem biased5 (c : Dev nD) : (dat5 V c).arrAt 2 cfg5.N = Cert.Gcn.addRowRelu (V c main_v105) (V c main_v106) :=
  (dat5 V c).arrAt_eq_of_cover 2 _ (fun t _ => written5 V c t) (covered5)

end Cert.KernelIdeal.Tiles

end
-- ==== Proof.Tile6.lean ====
/-
  Tiled call 6: the dense step by tiles of 10000 rows. Grid point t multiplies rows 10000·t … 10000·t + 9999 of the
  feature array by the whole weight matrix and writes the product back as rows 10000·t … of the output, so each
  written tile is that tile of the whole product x · W; the ten tiles cover the 100000 rows, and the output array
  ends holding x · W.
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the feature and output windows move together down the rows,
    the weight window stays at the one whole block. -/
theorem points6 : ∀ t : Fin cfg6.N, win6_0.index t (0 : Fin 2) = win6_2.index t (0 : Fin 2) ∧ win6_0.index t (1 : Fin 2) = 0
    ∧ win6_1.index t (0 : Fin 2) = 0 ∧ win6_1.index t (1 : Fin 2) = 0 ∧ win6_2.index t (1 : Fin 2) = 0 :=
  (by decide +kernel : ∀ t : Fin grid6.N, _)

/-- Every one of the ten row tiles is some grid point's. -/
theorem everyTile6 : ∀ q : Fin 10, ∃ t : Fin cfg6.N, win6_2.index t = ![q.val, 0] :=
  (by decide +kernel : ∀ q : Fin 10, ∃ t : Fin grid6.N, win6_2.index t = ![q.val, 0])

/-- What grid point `t` writes back is tile `t` of the whole product. -/
theorem written6 (c : Dev nD) (t : Fin cfg6.N) :
    (dat6 V c).flushed 2 t = ((cfg6.win 2).blk t).view.read (Elt Ideal) (Cert.Gcn.project (V c main_v91) (V c main_arg6)) := by
  show (cfg6.win 2).cut (grid6.coords t) ((dat6 V c).after 2 t) = _
  rw [after6_2]
  unfold out6_2
  rw [View.canon_unit_zero Cert.Gcn.origin2]
  simp only [View.ld_unit_zero (S := S10000x64) Cert.Gcn.origin2, View.ld_unit_zero (S := S64x64) Cert.Gcn.origin2]
  obtain ⟨e0, e1, e2, e3, e4⟩ := points6 t
  funext j
  show k6_pay1 (iblk6 V c 0 t) (iblk6 V c 1 t) j = Cert.Gcn.project (V c main_v91) (V c main_arg6) (((cfg6.win 2).blk t).view.emb j)
  rw [Cert.Gcn.k6_pay1_eq]
  refine (Cert.Gcn.tileProduct_apply _ _ j).trans ?_
  refine Eq.trans ?_ (Cert.Gcn.project_apply _ _ _).symm
  refine Finset.sum_congr rfl fun k _ => ?_
  have hj0 : (j 0).val < 10000 := (j 0).isLt
  have hj1 : (j 1).val < 64 := (j 1).isLt
  have h0 : ((cfg6.win 0).blk t).view.emb (Cert.Gcn.tileRow j k) = Cert.Gcn.wholeRow (((cfg6.win 2).blk t).view.emb j) k := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * k.val = k.val; omega
  have h1 : ((cfg6.win 1).blk t).view.emb (Cert.Gcn.weightCol j k) = Cert.Gcn.wholeCol (((cfg6.win 2).blk t).view.emb j) k := by
    funext a; apply Fin.ext
    match a with
    | ⟨0, _⟩ => show win6_1.index t (0 : Fin 2) * 64 + 1 * k.val = k.val; omega
    | ⟨1, _⟩ => show win6_1.index t (1 : Fin 2) * 64 + 1 * (j 1).val = win6_2.index t (1 : Fin 2) * 64 + 1 * (j 1).val; omega
  conv_rhs => rw [← h0, ← h1]
  all_goals rfl

/-- An entry of the output array lies in grid point `t`'s tile iff each coordinate lies in the tile's range. -/
theorem inTile6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v108).slice (win6_2.rect t)).set ↔ _
  rw [View.set_slice_whole, Rect.mem_set_unit]
  exact Iff.rfl

/-- Row r of the output lies in the tile of grid point r / 10000: the tiles cover the array. -/
theorem covered6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := everyTile6 ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [inTile6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- After the call the output array holds x · W of the arrays the call found. -/
theorem dense6 (c : Dev nD) : (dat6 V c).arrAt 2 cfg6.N = Cert.Gcn.project (V c main_v91) (V c main_arg6) :=
  (dat6 V c).arrAt_eq_of_cover 2 _ (fun t _ => written6 V c t) (covered6)

end Cert.KernelIdeal.Tiles

end
-- ==== Proof.Tile7.lean ====
/-
  Tiled call 7: the bias and the positive part by tiles of 10000 rows. Grid point t adds the bias row to rows
  10000·t … 10000·t + 9999 of the aggregated features, takes the positive part, and writes the result back as rows
  10000·t … of the output, so each written tile is that tile of the whole-array step; the ten tiles cover the
  100000 rows, and the output array ends holding max (a + row, 0).
-/
import proofs.«135384_j7275674600509_1_alg».proof.Proof.Gen.KernelIdeal.Frame
import proofs.«135384_j7275674600509_1_alg».proof.Proof.Payload

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three windows' block indices at every grid point: the input and output windows move together down the rows,
    the bias row's window stays at its one block. -/
theorem points7 : ∀ t : Fin cfg7.N, win7_0.index t (0 : Fin 2) = win7_2.index t (0 : Fin 2) ∧ win7_0.index t (1 : Fin 2) = 0
    ∧ win7_1.index t (0 : Fin 2) = 0 ∧ win7_1.index t (1 : Fin 2) = 0 ∧ win7_2.index t (1 : Fin 2) = 0 ∧ win7_2.index t (0 : Fin 2) ≤ 9 :=
  (by decide +kernel : ∀ t : Fin grid7.N, _)

/-- Every one of the ten row tiles is some grid point's. -/
theorem everyTile7 : ∀ q : Fin 10, ∃ t : Fin cfg7.N, win7_2.index t = ![q.val, 0] :=
  (by decide +kernel : ∀ q : Fin 10, ∃ t : Fin grid7.N, win7_2.index t = ![q.val, 0])

/-- What grid point `t` writes back is tile `t` of the whole-array step. -/
theorem written7 (c : Dev nD) (t : Fin cfg7.N) :
    (dat7 V c).flushed 2 t = ((cfg7.win 2).blk t).view.read (Elt Ideal) (Cert.Gcn.addRowRelu (V c main_v121) (V c main_v122)) := by
  show (cfg7.win 2).cut (grid7.coords t) ((dat7 V c).after 2 t) = _
  rw [after7_2]
  unfold out7_2
  rw [View.canon_unit_zero Cert.Gcn.origin2]
  simp only [View.ld_unit_zero (S := S10000x64) Cert.Gcn.origin2, View.ld_unit_zero (S := S1x64) Cert.Gcn.origin2]
  obtain ⟨e0, e1, e2, e3, e4, e5⟩ := points7 t
  funext j
  obtain ⟨p, q, rfl⟩ : ∃ (p : Fin 10000) (q : Fin 64), j = ix2 p q := ⟨j 0, j 1, eq_ix2 j⟩
  have hp : p.val < 10000 := p.isLt
  have hP : win7_2.index t (0 : Fin 2) * 10000 + p.val < 100000 := by omega
  have h2 : ((cfg7.win 2).blk t).view.emb (ix2 p q) = ix2 (⟨win7_2.index t (0 : Fin 2) * 10000 + p.val, hP⟩ : Fin 100000) q := by
    funext a; apply Fin.ext
    match a with
    | ⟨0, _⟩ => show win7_2.index t (0 : Fin 2) * 10000 + 1 * p.val = win7_2.index t (0 : Fin 2) * 10000 + p.val; omega
    | ⟨1, _⟩ => show win7_2.index t (1 : Fin 2) * 64 + 1 * q.val = q.val; omega
  have h0 : ((cfg7.win 0).blk t).view.emb (ix2 p q) = ix2 (⟨win7_2.index t (0 : Fin 2) * 10000 + p.val, hP⟩ : Fin 100000) q := by
    funext a; apply Fin.ext
    match a with
    | ⟨0, _⟩ => show win7_0.index t (0 : Fin 2) * 10000 + 1 * p.val = win7_2.index t (0 : Fin 2) * 10000 + p.val; omega
    | ⟨1, _⟩ => show win7_0.index t (1 : Fin 2) * 64 + 1 * q.val = q.val; omega
  have h1 : ((cfg7.win 1).blk t).view.emb (ix2 (0 : Fin 1) q) = ix2 (0 : Fin 1) q := by
    funext a; apply Fin.ext
    match a with
    | ⟨0, _⟩ => show win7_1.index t (0 : Fin 2) * 1 + 1 * 0 = 0; omega
    | ⟨1, _⟩ => show win7_1.index t (1 : Fin 2) * 64 + 1 * q.val = q.val; omega
  show k1_pay1 (iblk7 V c 0 t) (iblk7 V c 1 t) (ix2 p q) = Cert.Gcn.addRowRelu (V c main_v121) (V c main_v122) (((cfg7.win 2).blk t).view.emb (ix2 p q))
  rw [h2]
  refine (Cert.Gcn.tileBias_apply _ _ p q).trans ?_
  refine Eq.trans ?_ (Cert.Gcn.addRowRelu_apply _ _ _ q).symm
  conv_rhs => rw [← h0, ← h1]
  all_goals rfl

/-- An entry of the output array lies in grid point `t`'s tile iff each coordinate lies in the tile's range. -/
theorem inTile7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v123).slice (win7_2.rect t)).set ↔ _
  rw [View.set_slice_whole, Rect.mem_set_unit]
  exact Iff.rfl

/-- Row r of the output lies in the tile of grid point r / 10000: the tiles cover the array. -/
theorem covered7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  obtain ⟨t, ht⟩ := everyTile7 ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [inTile7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- After the call the output array holds the whole-array step of the arrays the call found. -/
theorem biased7 (c : Dev nD) : (dat7 V c).arrAt 2 cfg7.N = Cert.Gcn.addRowRelu (V c main_v121) (V c main_v122) :=
  (dat7 V c).arrAt_eq_of_cover 2 _ (fun t _ => written7 V c t) (covered7)

end Cert.KernelIdeal.Tiles

end
-- ==== Proof.Stages.lean ====
/-
  The contents of the buffers that matter at each boundary of the idealized kernel's run, as functions of the
  arguments: the preparation leaves each graph's source list, destination list and edge weights; each dense call leaves
  x · W of the features it found; each stretch between calls leaves the sparse step of that product and the bias as a
  row; each bias call leaves the layer's output. Read in order this is one layer over each graph and then a second
  layer over each, so the two result buffers hold the two-layer network of their graph's arguments.
-/
import proofs.«135384_j7275674600509_1_alg».proof.Proof.Gen.KernelIdeal.Frame
import proofs.«135384_j7275674600509_1_alg».proof.Proof.Payload
import proofs.«135384_j7275674600509_1_alg».proof.Proof.HostSteps
import proofs.«135384_j7275674600509_1_alg».proof.Proof.KeepEdges1
import proofs.«135384_j7275674600509_1_alg».proof.Proof.KeepEdges2
import proofs.«135384_j7275674600509_1_alg».proof.Proof.KeepArgsA
import proofs.«135384_j7275674600509_1_alg».proof.Proof.KeepArgsB
import proofs.«135384_j7275674600509_1_alg».proof.Proof.KeepFeatures
import proofs.«135384_j7275674600509_1_alg».proof.Proof.Tile0
import proofs.«135384_j7275674600509_1_alg».proof.Proof.Tile1
import proofs.«135384_j7275674600509_1_alg».proof.Proof.Tile2
import proofs.«135384_j7275674600509_1_alg».proof.Proof.Tile3
import proofs.«135384_j7275674600509_1_alg».proof.Proof.Tile4
import proofs.«135384_j7275674600509_1_alg».proof.Proof.Tile5
import proofs.«135384_j7275674600509_1_alg».proof.Proof.Tile6
import proofs.«135384_j7275674600509_1_alg».proof.Proof.Tile7

set_option maxRecDepth 16384

noncomputable section

namespace Cert.KernelIdeal.Stages

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-! ## The arguments where they are read -/

theorem w5_arg0 : W5 m ρ c (Proc.devRef .tc main_arg0) = (m ((c : Thread nD τ).loc main_arg0)) := (Keep.keep_arg0_0_5 m ρ c).trans rfl
theorem w5_arg4 : W5 m ρ c (Proc.devRef .tc main_arg4) = (m ((c : Thread nD τ).loc main_arg4)) := (Keep.keep_arg4_0_5 m ρ c).trans rfl
theorem w8_arg4 : W8 m ρ c (Proc.devRef .tc main_arg4) = (m ((c : Thread nD τ).loc main_arg4)) := (Keep.keep_arg4_5_8 m ρ c).trans (w5_arg4 m ρ c)
theorem w8_arg1 : W8 m ρ c (Proc.devRef .tc main_arg1) = (m ((c : Thread nD τ).loc main_arg1)) := (Keep.keep_arg1_0_8 m ρ c).trans rfl
theorem w6_arg5 : W6 m ρ c (Proc.devRef .tc main_arg5) = (m ((c : Thread nD τ).loc main_arg5)) := (Keep.keep_arg5_0_6 m ρ c).trans rfl
theorem w9_arg5 : W9 m ρ c (Proc.devRef .tc main_arg5) = (m ((c : Thread nD τ).loc main_arg5)) := (Keep.keep_arg5_6_9 m ρ c).trans (w6_arg5 m ρ c)
theorem w11_arg6 : W11 m ρ c (Proc.devRef .tc main_arg6) = (m ((c : Thread nD τ).loc main_arg6)) := (Keep.keep_arg6_0_11 m ρ c).trans rfl
theorem w14_arg6 : W14 m ρ c (Proc.devRef .tc main_arg6) = (m ((c : Thread nD τ).loc main_arg6)) := (Keep.keep_arg6_11_14 m ρ c).trans (w11_arg6 m ρ c)
theorem w12_arg7 : W12 m ρ c (Proc.devRef .tc main_arg7) = (m ((c : Thread nD τ).loc main_arg7)) := (Keep.keep_arg7_0_12 m ρ c).trans rfl
theorem w15_arg7 : W15 m ρ c (Proc.devRef .tc main_arg7) = (m ((c : Thread nD τ).loc main_arg7)) := (Keep.keep_arg7_12_15 m ρ c).trans (w12_arg7 m ρ c)

/-! ## The two graphs' edge data -/

theorem w5_v3 : W5 m ρ c (Proc.devRef .tc main_v3) = Cert.Gcn.sources (m ((c : Thread nD τ).loc main_arg2)) := Host.prep_sources1 (W0 m ρ c)
theorem w5_v6 : W5 m ρ c (Proc.devRef .tc main_v6) = Cert.Gcn.targets (m ((c : Thread nD τ).loc main_arg2)) := Host.prep_targets1 (W0 m ρ c)
theorem w5_v29 : W5 m ρ c (Proc.devRef .tc main_v29) = Cert.Gcn.edgeWeight (m ((c : Thread nD τ).loc main_arg2)) := Host.prep_weight1 (W0 m ρ c)
theorem w5_v33 : W5 m ρ c (Proc.devRef .tc main_v33) = Cert.Gcn.sources (m ((c : Thread nD τ).loc main_arg3)) := Host.prep_sources2 (W0 m ρ c)
theorem w5_v36 : W5 m ρ c (Proc.devRef .tc main_v36) = Cert.Gcn.targets (m ((c : Thread nD τ).loc main_arg3)) := Host.prep_targets2 (W0 m ρ c)
theorem w5_v59 : W5 m ρ c (Proc.devRef .tc main_v59) = Cert.Gcn.edgeWeight (m ((c : Thread nD τ).loc main_arg3)) := Host.prep_weight2 (W0 m ρ c)

theorem w6_v3 : W6 m ρ c (Proc.devRef .tc main_v3) = Cert.Gcn.sources (m ((c : Thread nD τ).loc main_arg2)) := (Keep.keep_v3_5_6 m ρ c).trans (w5_v3 m ρ c)
theorem w6_v6 : W6 m ρ c (Proc.devRef .tc main_v6) = Cert.Gcn.targets (m ((c : Thread nD τ).loc main_arg2)) := (Keep.keep_v6_5_6 m ρ c).trans (w5_v6 m ρ c)
theorem w6_v29 : W6 m ρ c (Proc.devRef .tc main_v29) = Cert.Gcn.edgeWeight (m ((c : Thread nD τ).loc main_arg2)) := (Keep.keep_v29_5_6 m ρ c).trans (w5_v29 m ρ c)
theorem w12_v3 : W12 m ρ c (Proc.devRef .tc main_v3) = Cert.Gcn.sources (m ((c : Thread nD τ).loc main_arg2)) := (Keep.keep_v3_6_12 m ρ c).trans (w6_v3 m ρ c)
theorem w12_v6 : W12 m ρ c (Proc.devRef .tc main_v6) = Cert.Gcn.targets (m ((c : Thread nD τ).loc main_arg2)) := (Keep.keep_v6_6_12 m ρ c).trans (w6_v6 m ρ c)
theorem w12_v29 : W12 m ρ c (Proc.devRef .tc main_v29) = Cert.Gcn.edgeWeight (m ((c : Thread nD τ).loc main_arg2)) := (Keep.keep_v29_6_12 m ρ c).trans (w6_v29 m ρ c)
theorem w9_v33 : W9 m ρ c (Proc.devRef .tc main_v33) = Cert.Gcn.sources (m ((c : Thread nD τ).loc main_arg3)) := (Keep.keep_v33_5_9 m ρ c).trans (w5_v33 m ρ c)
theorem w9_v36 : W9 m ρ c (Proc.devRef .tc main_v36) = Cert.Gcn.targets (m ((c : Thread nD τ).loc main_arg3)) := (Keep.keep_v36_5_9 m ρ c).trans (w5_v36 m ρ c)
theorem w9_v59 : W9 m ρ c (Proc.devRef .tc main_v59) = Cert.Gcn.edgeWeight (m ((c : Thread nD τ).loc main_arg3)) := (Keep.keep_v59_5_9 m ρ c).trans (w5_v59 m ρ c)
theorem w15_v33 : W15 m ρ c (Proc.devRef .tc main_v33) = Cert.Gcn.sources (m ((c : Thread nD τ).loc main_arg3)) := (Keep.keep_v33_9_15 m ρ c).trans (w9_v33 m ρ c)
theorem w15_v36 : W15 m ρ c (Proc.devRef .tc main_v36) = Cert.Gcn.targets (m ((c : Thread nD τ).loc main_arg3)) := (Keep.keep_v36_9_15 m ρ c).trans (w9_v36 m ρ c)
theorem w15_v59 : W15 m ρ c (Proc.devRef .tc main_v59) = Cert.Gcn.edgeWeight (m ((c : Thread nD τ).loc main_arg3)) := (Keep.keep_v59_9_15 m ρ c).trans (w9_v59 m ρ c)

/-! ## The first layer over the first graph -/

theorem w6_v60 : W6 m ρ c (Proc.devRef .tc main_v60) = Cert.Gcn.project (m ((c : Thread nD τ).loc main_arg0)) (m ((c : Thread nD τ).loc main_arg4)) :=
  (W6_arr m ρ c 2).trans ((Tiles.dense0 (V5 m ρ) c).trans (congrArg₂ Cert.Gcn.project (w5_arg0 m ρ c) (w5_arg4 m ρ c)))
theorem w7_v73 : W7 m ρ c (Proc.devRef .tc main_v73) = Cert.Gcn.gatherScatter (Cert.Gcn.project (m ((c : Thread nD τ).loc main_arg0)) (m ((c : Thread nD τ).loc main_arg4))) (Cert.Gcn.sources (m ((c : Thread nD τ).loc main_arg2))) (Cert.Gcn.targets (m ((c : Thread nD τ).loc main_arg2))) (Cert.Gcn.edgeWeight (m ((c : Thread nD τ).loc main_arg2))) :=
  (Host.sparse1 (W6 m ρ c)).trans (Cert.Gcn.gatherScatter_congr (w6_v60 m ρ c) (w6_v3 m ρ c) (w6_v6 m ρ c) (w6_v29 m ρ c))
theorem w7_v74 : W7 m ρ c (Proc.devRef .tc main_v74) = Cert.Gcn.asRow (m ((c : Thread nD τ).loc main_arg5)) :=
  (Host.row1 (W6 m ρ c)).trans ((congrArg (fun b => shapeCast S1x64 b shapeCasts_S64_S1x64) (w6_arg5 m ρ c)).trans (Cert.Gcn.asRow_eq_reshape _ _).symm)
theorem w8_v75 : W8 m ρ c (Proc.devRef .tc main_v75) = (Cert.Gcn.layer (m ((c : Thread nD τ).loc main_arg0)) (m ((c : Thread nD τ).loc main_arg2)) (m ((c : Thread nD τ).loc main_arg4)) (m ((c : Thread nD τ).loc main_arg5))) :=
  (W8_arr m ρ c 2).trans ((Tiles.biased1 (V7 m ρ) c).trans (congrArg₂ Cert.Gcn.addRowRelu (w7_v73 m ρ c) (w7_v74 m ρ c)))

/-! ## The first layer over the second graph -/

theorem w9_v76 : W9 m ρ c (Proc.devRef .tc main_v76) = Cert.Gcn.project (m ((c : Thread nD τ).loc main_arg1)) (m ((c : Thread nD τ).loc main_arg4)) :=
  (W9_arr m ρ c 2).trans ((Tiles.dense2 (V8 m ρ) c).trans (congrArg₂ Cert.Gcn.project (w8_arg1 m ρ c) (w8_arg4 m ρ c)))
theorem w10_v89 : W10 m ρ c (Proc.devRef .tc main_v89) = Cert.Gcn.gatherScatter (Cert.Gcn.project (m ((c : Thread nD τ).loc main_arg1)) (m ((c : Thread nD τ).loc main_arg4))) (Cert.Gcn.sources (m ((c : Thread nD τ).loc main_arg3))) (Cert.Gcn.targets (m ((c : Thread nD τ).loc main_arg3))) (Cert.Gcn.edgeWeight (m ((c : Thread nD τ).loc main_arg3))) :=
  (Host.sparse3 (W9 m ρ c)).trans (Cert.Gcn.gatherScatter_congr (w9_v76 m ρ c) (w9_v33 m ρ c) (w9_v36 m ρ c) (w9_v59 m ρ c))
theorem w10_v90 : W10 m ρ c (Proc.devRef .tc main_v90) = Cert.Gcn.asRow (m ((c : Thread nD τ).loc main_arg5)) :=
  (Host.row3 (W9 m ρ c)).trans ((congrArg (fun b => shapeCast S1x64 b shapeCasts_S64_S1x64) (w9_arg5 m ρ c)).trans (Cert.Gcn.asRow_eq_reshape _ _).symm)
theorem w11_v91 : W11 m ρ c (Proc.devRef .tc main_v91) = (Cert.Gcn.layer (m ((c : Thread nD τ).loc main_arg1)) (m ((c : Thread nD τ).loc main_arg3)) (m ((c : Thread nD τ).loc main_arg4)) (m ((c : Thread nD τ).loc main_arg5))) :=
  (W11_arr m ρ c 2).trans ((Tiles.biased3 (V10 m ρ) c).trans (congrArg₂ Cert.Gcn.addRowRelu (w10_v89 m ρ c) (w10_v90 m ρ c)))

/-! ## The second layer over the first graph -/

theorem w11_v75 : W11 m ρ c (Proc.devRef .tc main_v75) = (Cert.Gcn.layer (m ((c : Thread nD τ).loc main_arg0)) (m ((c : Thread nD τ).loc main_arg2)) (m ((c : Thread nD τ).loc main_arg4)) (m ((c : Thread nD τ).loc main_arg5))) := (Keep.keep_v75_8_11 m ρ c).trans (w8_v75 m ρ c)
theorem w12_v92 : W12 m ρ c (Proc.devRef .tc main_v92) = Cert.Gcn.project (Cert.Gcn.layer (m ((c : Thread nD τ).loc main_arg0)) (m ((c : Thread nD τ).loc main_arg2)) (m ((c : Thread nD τ).loc main_arg4)) (m ((c : Thread nD τ).loc main_arg5))) (m ((c : Thread nD τ).loc main_arg6)) :=
  (W12_arr m ρ c 2).trans ((Tiles.dense4 (V11 m ρ) c).trans (congrArg₂ Cert.Gcn.project (w11_v75 m ρ c) (w11_arg6 m ρ c)))
theorem w13_v105 : W13 m ρ c (Proc.devRef .tc main_v105) = Cert.Gcn.gatherScatter (Cert.Gcn.project (Cert.Gcn.layer (m ((c : Thread nD τ).loc main_arg0)) (m ((c : Thread nD τ).loc main_arg2)) (m ((c : Thread nD τ).loc main_arg4)) (m ((c : Thread nD τ).loc main_arg5))) (m ((c : Thread nD τ).loc main_arg6))) (Cert.Gcn.sources (m ((c : Thread nD τ).loc main_arg2))) (Cert.Gcn.targets (m ((c : Thread nD τ).loc main_arg2))) (Cert.Gcn.edgeWeight (m ((c : Thread nD τ).loc main_arg2))) :=
  (Host.sparse5 (W12 m ρ c)).trans (Cert.Gcn.gatherScatter_congr (w12_v92 m ρ c) (w12_v3 m ρ c) (w12_v6 m ρ c) (w12_v29 m ρ c))
theorem w13_v106 : W13 m ρ c (Proc.devRef .tc main_v106) = Cert.Gcn.asRow (m ((c : Thread nD τ).loc main_arg7)) :=
  (Host.row5 (W12 m ρ c)).trans ((congrArg (fun b => shapeCast S1x64 b shapeCasts_S64_S1x64) (w12_arg7 m ρ c)).trans (Cert.Gcn.asRow_eq_reshape _ _).symm)
theorem w14_v107 : W14 m ρ c (Proc.devRef .tc main_v107) = Cert.Gcn.network (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) :=
  (W14_arr m ρ c 2).trans ((Tiles.biased5 (V13 m ρ) c).trans (congrArg₂ Cert.Gcn.addRowRelu (w13_v105 m ρ c) (w13_v106 m ρ c)))
/-- The first result. -/
theorem w17_v107 : W17 m ρ c (Proc.devRef .tc main_v107) = Cert.Gcn.network (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) :=
  (Keep.keep_v107_14_17 m ρ c).trans (w14_v107 m ρ c)

/-! ## The second layer over the second graph -/

theorem w14_v91 : W14 m ρ c (Proc.devRef .tc main_v91) = (Cert.Gcn.layer (m ((c : Thread nD τ).loc main_arg1)) (m ((c : Thread nD τ).loc main_arg3)) (m ((c : Thread nD τ).loc main_arg4)) (m ((c : Thread nD τ).loc main_arg5))) := (Keep.keep_v91_11_14 m ρ c).trans (w11_v91 m ρ c)
theorem w15_v108 : W15 m ρ c (Proc.devRef .tc main_v108) = Cert.Gcn.project (Cert.Gcn.layer (m ((c : Thread nD τ).loc main_arg1)) (m ((c : Thread nD τ).loc main_arg3)) (m ((c : Thread nD τ).loc main_arg4)) (m ((c : Thread nD τ).loc main_arg5))) (m ((c : Thread nD τ).loc main_arg6)) :=
  (W15_arr m ρ c 2).trans ((Tiles.dense6 (V14 m ρ) c).trans (congrArg₂ Cert.Gcn.project (w14_v91 m ρ c) (w14_arg6 m ρ c)))
theorem w16_v121 : W16 m ρ c (Proc.devRef .tc main_v121) = Cert.Gcn.gatherScatter (Cert.Gcn.project (Cert.Gcn.layer (m ((c : Thread nD τ).loc main_arg1)) (m ((c : Thread nD τ).loc main_arg3)) (m ((c : Thread nD τ).loc main_arg4)) (m ((c : Thread nD τ).loc main_arg5))) (m ((c : Thread nD τ).loc main_arg6))) (Cert.Gcn.sources (m ((c : Thread nD τ).loc main_arg3))) (Cert.Gcn.targets (m ((c : Thread nD τ).loc main_arg3))) (Cert.Gcn.edgeWeight (m ((c : Thread nD τ).loc main_arg3))) :=
  (Host.sparse7 (W15 m ρ c)).trans (Cert.Gcn.gatherScatter_congr (w15_v108 m ρ c) (w15_v33 m ρ c) (w15_v36 m ρ c) (w15_v59 m ρ c))
theorem w16_v122 : W16 m ρ c (Proc.devRef .tc main_v122) = Cert.Gcn.asRow (m ((c : Thread nD τ).loc main_arg7)) :=
  (Host.row7 (W15 m ρ c)).trans ((congrArg (fun b => shapeCast S1x64 b shapeCasts_S64_S1x64) (w15_arg7 m ρ c)).trans (Cert.Gcn.asRow_eq_reshape _ _).symm)
/-- The second result. -/
theorem w17_v123 : W17 m ρ c (Proc.devRef .tc main_v123) = Cert.Gcn.network (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W17_arr m ρ c 2).trans ((Tiles.biased7 (V16 m ρ) c).trans (congrArg₂ Cert.Gcn.addRowRelu (w16_v121 m ρ c) (w16_v122 m ρ c)))

end Cert.KernelIdeal.Stages

end
-- ==== Proof.lean ====
/-
  Two graph-convolution layers, tiled against whole.

  Both programs compute, for each of two graphs, relu (A · (relu (A · (x · W1) + b1) · W2) + b2): A is the graph's
  adjacency with self-loops, each edge weighted by deg(source)^(-1/2) · deg(target)^(-1/2) (a node of degree zero
  contributing the factor 0). The reference is a straight line of host operations. The kernel computes the edge
  data with the same host operations, but hands each dense product x · W and each bias-and-relu step to a tiled call
  that works through the 100000 rows in ten tiles of 10000, the gather along the sources and the sum at the
  destinations staying on the host between the calls.

  Over the extended reals the two agree with no appeal to finiteness of the inputs:
    * a tile of x · W is the same 64-term sum ∑ₖ x[r, k] · W[k, q] as the whole product at that row (rounding the
      operands to bf16 is the identity there, and the tile's accumulator starts at zero); the ten tiles cover the rows;
    * a tile of max (a + b, 0) is that expression at the tile's rows, and a bias reshaped to a row is the bias broadcast
      along a new leading axis;
    * everything else is the same host operation applied to equal arrays.
  So each result buffer of the kernel ends holding the network of Proof/Spec.lean applied to its graph's arguments
  (Proof/Stages.lean follows the buffers through the eight calls), and so does the reference's (Proof/RefRun.lean).
  The three frames are the generated launch proofs; the idealization rewrote nothing, so there is nothing to preserve.
-/
import proofs.«135384_j7275674600509_1_alg».proof.Defs
import proofs.«135384_j7275674600509_1_alg».proof.Proof.Gen.Kernel
import proofs.«135384_j7275674600509_1_alg».proof.Proof.Gen.Kernel.Frame
import proofs.«135384_j7275674600509_1_alg».proof.Proof.Gen.KernelIdeal
import proofs.«135384_j7275674600509_1_alg».proof.Proof.Gen.KernelIdeal.Frame
import proofs.«135384_j7275674600509_1_alg».proof.Proof.Gen.ReferenceIdeal
import proofs.«135384_j7275674600509_1_alg».proof.Proof.Gen.Pre_finite_inputs
import proofs.«135384_j7275674600509_1_alg».proof.Proof.KernelRun
import proofs.«135384_j7275674600509_1_alg».proof.Proof.RefRun
import proofs.«135384_j7275674600509_1_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the two results forgotten. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments both programs end with each result at the two-layer network of its
    graph's arguments. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gcn.network (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.w17_v107 m ρ c), (h c).2.1.trans (Cert.KernelIdeal.Stages.w17_v123 m ρ c), (h c).2.2⟩)
      (Cert.KernelIdeal.Results.run_results (F := Ideal) m ρ)
  · refine (θ_run Cert.ReferenceIdeal.defs _ _).mono (fun r h c => ⟨?_, ?_, (h c).2.2⟩)
      (Cert.ReferenceIdeal.ValueP.run (F := Ideal) m' ρ')
    · rw [(h c).1, (hagree c).1, (hagree c).2.2.1, (hagree c).2.2.2.2.1, (hagree c).2.2.2.2.2.1, (hagree c).2.2.2.2.2.2.1, (hagree c).2.2.2.2.2.2.2]
    · rw [(h c).2.1, (hagree c).2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
